-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x3x256x256 : Shape := ⟨5, ![4, 8, 3, 256, 256]⟩
abbrev S_ : Shape := ⟨0, ![]⟩

class Facts : Prop where
  bcast_S_S4x8x3x256x256 : S_.BroadcastsInDim S4x8x3x256x256 (![] : Fin 0 → Fin S4x8x3x256x256.rank)
  reducesTo_S4x8x3x256x256_S_d0_1_2_3_4 : S4x8x3x256x256.ReducesTo [0, 1, 2, 3, 4] S_
  h_S_ : 0 < S_.numel

variable [Facts]

def fn {F : FTy → Type} [FloatOps F] (main_arg0 : FVec F S4x8x3x256x256 .f32) : IVec S_ 1 :=
  let main_v0 : FVec F S4x8x3x256x256 .f32 := Host.absf main_arg0
  let main_cst : FVec F S_ .f32 := constant S_ .f32 0x7F800000#32
  let main_v1 : FVec F S4x8x3x256x256 .f32 := broadcastInDim S4x8x3x256x256 ![] bcast_S_S4x8x3x256x256 main_cst
  let main_v2 : IVec S4x8x3x256x256 1 := cmpf .olt main_v0 main_v1
  let main_c : IVec S_ 1 := constantI S_ 1 1#1
  let main_v3 : IVec S_ 1 := (fun x v => Host.reduce IntOp.andi x v reducesTo_S4x8x3x256x256_S_d0_1_2_3_4 h_S_) main_v2 main_c
  main_v3
-- ==== Kernel.lean ====
abbrev S4x8x3x256x256 : Shape := ⟨5, ![4, 8, 3, 256, 256]⟩
abbrev S96x256x256 : Shape := ⟨3, ![96, 256, 256]⟩
abbrev S12x256x256 : Shape := ⟨3, ![12, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S4x8x3x256x256, .f32⟩
  | .hbm, ⟨1, _⟩ => ⟨S96x256x256, .f32⟩
  | .hbm, ⟨2, _⟩ => ⟨S96x256x256, .f32⟩
  | .hbm, ⟨3, _⟩ => ⟨S4x8x3x256x256, .f32⟩
  | .local _ .vmem, ⟨0, _⟩ => ⟨S12x256x256, .f32⟩
  | .local _ .vmem, ⟨1, _⟩ => ⟨S12x256x256, .f32⟩
  | .local _ .vmem, ⟨2, _⟩ => ⟨S12x256x256, .f32⟩
  | .local _ .vmem, ⟨3, _⟩ => ⟨S12x256x256, .f32⟩
  | _, _ => ⟨S4x8x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x8x3x256x256_S96x256x256 : S4x8x3x256x256.ShapeCasts S96x256x256
  inb_S12x256x256_S12x256x256_0_0_0 : ∀ a, (![0, 0, 0] : Fin 3 → Nat) a + S12x256x256.size a ≤ S12x256x256.size a
  h_S12x256x256 : 0 < S12x256x256.numel
  shapeCasts_S12x256x256_S12x256x256 : S12x256x256.ShapeCasts S12x256x256
  rotates_S12x256x256_d1 : S12x256x256.Rotates 1 none
  rotates_S12x256x256_d2 : S12x256x256.Rotates 2 none
  iota_S12x256x256_d1_w32 : S12x256x256.Iotas .tc 32 [1]
  iota_S12x256x256_d2_w32 : S12x256x256.Iotas .tc 32 [2]
  shapeCasts_S96x256x256_S4x8x3x256x256 : S96x256x256.ShapeCasts S4x8x3x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x256x256.size a ≤ S96x256x256.size a
  hwx0_0 : ∀ i : grid0.Coords, EltTy.bits .f32 = 32 ∨ (Rect.block (s := S96x256x256) S12x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12x256x256.size a ≤ S96x256x256.size a
  hwx0_1 : ∀ i : grid0.Coords, EltTy.bits .f32 = 32 ∨ (Rect.block (s := S96x256x256) S12x256x256.size (cc0_transform_1 i) (hinb0_1 i)).WholeWords (EltTy.packing .f32)

variable [Facts₀]

abbrev win0_0 : Pipeline.Window sig grid0 :=
  Pipeline.Window.ofSpec (Memref.whole main_v0) S12x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x3x256x256 : Shape := ⟨5, ![4, 8, 3, 256, 256]⟩
abbrev S32x3x256x256 : Shape := ⟨4, ![32, 3, 256, 256]⟩
abbrev S32x3x252x252 : Shape := ⟨4, ![32, 3, 252, 252]⟩
abbrev S32x3x252x252x1 : Shape := ⟨5, ![32, 3, 252, 252, 1]⟩
abbrev S32x3x252x252x16 : Shape := ⟨5, ![32, 3, 252, 252, 16]⟩
abbrev S32x3x252x252x9 : Shape := ⟨5, ![32, 3, 252, 252, 9]⟩
abbrev S32x3x252x252x25 : Shape := ⟨5, ![32, 3, 252, 252, 25]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x8x3x256x256, .f32⟩
  | .hbm, ⟨1, _⟩ => ⟨S32x3x256x256, .f32⟩
  | .hbm, ⟨2, _⟩ => ⟨S32x3x252x252, .f32⟩
  | .hbm, ⟨3, _⟩ => ⟨S32x3x252x252, .f32⟩
  | .hbm, ⟨4, _⟩ => ⟨S32x3x252x252, .f32⟩
  | .hbm, ⟨5, _⟩ => ⟨S32x3x252x252, .f32⟩
  | .hbm, ⟨6, _⟩ => ⟨S32x3x252x252, .f32⟩
  | .hbm, ⟨7, _⟩ => ⟨S32x3x252x252, .f32⟩
  | .hbm, ⟨8, _⟩ => ⟨S32x3x252x252, .f32⟩
  | .hbm, ⟨9, _⟩ => ⟨S32x3x252x252, .f32⟩
  | .hbm, ⟨10, _⟩ => ⟨S32x3x252x252, .f32⟩
  | .hbm, ⟨11, _⟩ => ⟨S32x3x252x252, .f32⟩
  | .hbm, ⟨12, _⟩ => ⟨S32x3x252x252, .f32⟩
  | .hbm, ⟨13, _⟩ => ⟨S32x3x252x252, .f32⟩
  | .hbm, ⟨14, _⟩ => ⟨S32x3x252x252, .f32⟩
  | .hbm, ⟨15, _⟩ => ⟨S32x3x252x252, .f32⟩
  | .hbm, ⟨16, _⟩ => ⟨S32x3x252x252, .f32⟩
  | .hbm, ⟨17, _⟩ => ⟨S32x3x252x252, .f32⟩
  | .hbm, ⟨18, _⟩ => ⟨S32x3x252x252, .f32⟩
  | .hbm, ⟨19, _⟩ => ⟨S32x3x252x252, .f32⟩
  | .hbm, ⟨20, _⟩ => ⟨S32x3x252x252, .f32⟩
  | .hbm, ⟨21, _⟩ => ⟨S32x3x252x252, .f32⟩
  | .hbm, ⟨22, _⟩ => ⟨S32x3x252x252, .f32⟩
  | .hbm, ⟨23, _⟩ => ⟨S32x3x252x252, .f32⟩
  | .hbm, ⟨24, _⟩ => ⟨S32x3x252x252, .f32⟩
  | .hbm, ⟨25, _⟩ => ⟨S32x3x252x252, .f32⟩
  | .hbm, ⟨26, _⟩ => ⟨S32x3x252x252, .f32⟩
  | .hbm, ⟨27, _⟩ => ⟨S32x3x252x252x1, .f32⟩
  | .hbm, ⟨28, _⟩ => ⟨S32x3x252x252x1, .f32⟩
  | .hbm, ⟨29, _⟩ => ⟨S32x3x252x252x1, .f32⟩
  | .hbm, ⟨30, _⟩ => ⟨S32x3x252x252x1, .f32⟩
  | .hbm, ⟨31, _⟩ => ⟨S32x3x252x252x1, .f32⟩
  | .hbm, ⟨32, _⟩ => ⟨S32x3x252x252x1, .f32⟩
  | .hbm, ⟨33, _⟩ => ⟨S32x3x252x252x1, .f32⟩
  | .hbm, ⟨34, _⟩ => ⟨S32x3x252x252x1, .f32⟩
  | .hbm, ⟨35, _⟩ => ⟨S32x3x252x252x1, .f32⟩
  | .hbm, ⟨36, _⟩ => ⟨S32x3x252x252x1, .f32⟩
  | .hbm, ⟨37, _⟩ => ⟨S32x3x252x252x1, .f32⟩
  | .hbm, ⟨38, _⟩ => ⟨S32x3x252x252x1, .f32⟩
  | .hbm, ⟨39, _⟩ => ⟨S32x3x252x252x1, .f32⟩
  | .hbm, ⟨40, _⟩ => ⟨S32x3x252x252x1, .f32⟩
  | .hbm, ⟨41, _⟩ => ⟨S32x3x252x252x1, .f32⟩
  | .hbm, ⟨42, _⟩ => ⟨S32x3x252x252x1, .f32⟩
  | .hbm, ⟨43, _⟩ => ⟨S32x3x252x252x1, .f32⟩
  | .hbm, ⟨44, _⟩ => ⟨S32x3x252x252x1, .f32⟩
  | .hbm, ⟨45, _⟩ => ⟨S32x3x252x252x1, .f32⟩
  | .hbm, ⟨46, _⟩ => ⟨S32x3x252x252x1, .f32⟩
  | .hbm, ⟨47, _⟩ => ⟨S32x3x252x252x1, .f32⟩
  | .hbm, ⟨48, _⟩ => ⟨S32x3x252x252x1, .f32⟩
  | .hbm, ⟨49, _⟩ => ⟨S32x3x252x252x1, .f32⟩
  | .hbm, ⟨50, _⟩ => ⟨S32x3x252x252x1, .f32⟩
  | .hbm, ⟨51, _⟩ => ⟨S32x3x252x252x1, .f32⟩
  | .hbm, ⟨52, _⟩ => ⟨S32x3x252x252x16, .f32⟩
  | .hbm, ⟨53, _⟩ => ⟨S32x3x252x252x9, .f32⟩
  | .hbm, ⟨54, _⟩ => ⟨S32x3x252x252x25, .f32⟩
  | .hbm, ⟨55, _⟩ => ⟨S32x3x252x252x1, .f32⟩
  | .hbm, ⟨56, _⟩ => ⟨S32x3x252x252x25, .f32⟩
  | .hbm, ⟨57, _⟩ => ⟨S32x3x252x252x25, .f32⟩
  | .hbm, ⟨58, _⟩ => ⟨S32x3x252x252x25, .f32⟩
  | .hbm, ⟨59, _⟩ => ⟨S_, .f32⟩
  | .hbm, ⟨60, _⟩ => ⟨S32x3x252x252x25, .f32⟩
  | .hbm, ⟨61, _⟩ => ⟨S32x3x252x252x25, .f32⟩
  | .hbm, ⟨62, _⟩ => ⟨S_, .f32⟩
  | .hbm, ⟨63, _⟩ => ⟨S32x3x252x252x25, .f32⟩
  | .hbm, ⟨64, _⟩ => ⟨S32x3x252x252x25, .f32⟩
  | .hbm, ⟨65, _⟩ => ⟨S_, .f32⟩
  | .hbm, ⟨66, _⟩ => ⟨S32x3x252x252x25, .f32⟩
  | .hbm, ⟨67, _⟩ => ⟨S32x3x252x252x25, .f32⟩
  | .hbm, ⟨68, _⟩ => ⟨S_, .f32⟩
  | .hbm, ⟨69, _⟩ => ⟨S32x3x252x252, .f32⟩
  | .hbm, ⟨70, _⟩ => ⟨S_, .i32⟩
  | .hbm, ⟨71, _⟩ => ⟨S_, .f32⟩
  | .hbm, ⟨72, _⟩ => ⟨S32x3x256x256, .f32⟩
  | .hbm, ⟨73, _⟩ => ⟨S4x8x3x256x256, .f32⟩
  | _, _ => ⟨S4x8x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_cst : Ref sig .tc := ⟨.hbm, 59, rfl⟩
abbrev main_v58 : Ref sig .tc := ⟨.hbm, 60, rfl⟩
abbrev main_v59 : Ref sig .tc := ⟨.hbm, 61, rfl⟩
abbrev main_cst_0 : Ref sig .tc := ⟨.hbm, 62, rfl⟩
abbrev main_v60 : Ref sig .tc := ⟨.hbm, 63, rfl⟩
abbrev main_v61 : Ref sig .tc := ⟨.hbm, 64, rfl⟩
abbrev main_call0_cst : Ref sig .tc := ⟨.hbm, 65, rfl⟩
abbrev main_call0_v0 : Ref sig .tc := ⟨.hbm, 66, rfl⟩
abbrev main_v62 : Ref sig .tc := ⟨.hbm, 67, rfl⟩
abbrev main_cst_1 : Ref sig .tc := ⟨.hbm, 68, rfl⟩
abbrev main_v63 : Ref sig .tc := ⟨.hbm, 69, rfl⟩
abbrev main_c : Ref sig .tc := ⟨.hbm, 70, rfl⟩
abbrev main_call1_v0 : Ref sig .tc := ⟨.hbm, 71, rfl⟩
abbrev main_v64 : Ref sig .tc := ⟨.hbm, 72, rfl⟩
abbrev main_v65 : Ref sig .tc := ⟨.hbm, 73, rfl⟩

abbrev nD : Nat := 1
abbrev τ : Topo := Topo.v7x

variable {F : FTy → Type} [FloatOps F]

class Facts₀ : Prop where
  shapeCasts_S4x8x3x256x256_S32x3x256x256 : S4x8x3x256x256.ShapeCasts S32x3x256x256
  slices_S32x3x256x256_S32x3x252x252_0_0_0_0 : S32x3x256x256.Slices ![0, 0, 0, 0] S32x3x252x252
  slices_S32x3x256x256_S32x3x252x252_0_0_0_1 : S32x3x256x256.Slices ![0, 0, 0, 1] S32x3x252x252
  slices_S32x3x256x256_S32x3x252x252_0_0_0_2 : S32x3x256x256.Slices ![0, 0, 0, 2] S32x3x252x252
  slices_S32x3x256x256_S32x3x252x252_0_0_0_3 : S32x3x256x256.Slices ![0, 0, 0, 3] S32x3x252x252
  slices_S32x3x256x256_S32x3x252x252_0_0_0_4 : S32x3x256x256.Slices ![0, 0, 0, 4] S32x3x252x252
  slices_S32x3x256x256_S32x3x252x252_0_0_1_0 : S32x3x256x256.Slices ![0, 0, 1, 0] S32x3x252x252
  slices_S32x3x256x256_S32x3x252x252_0_0_1_1 : S32x3x256x256.Slices ![0, 0, 1, 1] S32x3x252x252
  slices_S32x3x256x256_S32x3x252x252_0_0_1_2 : S32x3x256x256.Slices ![0, 0, 1, 2] S32x3x252x252
  slices_S32x3x256x256_S32x3x252x252_0_0_1_3 : S32x3x256x256.Slices ![0, 0, 1, 3] S32x3x252x252
  slices_S32x3x256x256_S32x3x252x252_0_0_1_4 : S32x3x256x256.Slices ![0, 0, 1, 4] S32x3x252x252
  slices_S32x3x256x256_S32x3x252x252_0_0_2_0 : S32x3x256x256.Slices ![0, 0, 2, 0] S32x3x252x252
  slices_S32x3x256x256_S32x3x252x252_0_0_2_1 : S32x3x256x256.Slices ![0, 0, 2, 1] S32x3x252x252
  slices_S32x3x256x256_S32x3x252x252_0_0_2_2 : S32x3x256x256.Slices ![0, 0, 2, 2] S32x3x252x252
  slices_S32x3x256x256_S32x3x252x252_0_0_2_3 : S32x3x256x256.Slices ![0, 0, 2, 3] S32x3x252x252
  slices_S32x3x256x256_S32x3x252x252_0_0_2_4 : S32x3x256x256.Slices ![0, 0, 2, 4] S32x3x252x252
  slices_S32x3x256x256_S32x3x252x252_0_0_3_0 : S32x3x256x256.Slices ![0, 0, 3, 0] S32x3x252x252
  slices_S32x3x256x256_S32x3x252x252_0_0_3_1 : S32x3x256x256.Slices ![0, 0, 3, 1] S32x3x252x252
  slices_S32x3x256x256_S32x3x252x252_0_0_3_2 : S32x3x256x256.Slices ![0, 0, 3, 2] S32x3x252x252
  slices_S32x3x256x256_S32x3x252x252_0_0_3_3 : S32x3x256x256.Slices ![0, 0, 3, 3] S32x3x252x252
  slices_S32x3x256x256_S32x3x252x252_0_0_3_4 : S32x3x256x256.Slices ![0, 0, 3, 4] S32x3x252x252
  slices_S32x3x256x256_S32x3x252x252_0_0_4_0 : S32x3x256x256.Slices ![0, 0, 4, 0] S32x3x252x252
  slices_S32x3x256x256_S32x3x252x252_0_0_4_1 : S32x3x256x256.Slices ![0, 0, 4, 1] S32x3x252x252
  slices_S32x3x256x256_S32x3x252x252_0_0_4_2 : S32x3x256x256.Slices ![0, 0, 4, 2] S32x3x252x252
  slices_S32x3x256x256_S32x3x252x252_0_0_4_3 : S32x3x256x256.Slices ![0, 0, 4, 3] S32x3x252x252
  slices_S32x3x256x256_S32x3x252x252_0_0_4_4 : S32x3x256x256.Slices ![0, 0, 4, 4] S32x3x252x252
  bcast_S32x3x252x252_S32x3x252x252x1_0_1_2_3 : S32x3x252x252.BroadcastsInDim S32x3x252x252x1 (![0, 1, 2, 3] : Fin 4 → Fin S32x3x252x252x1.rank)
  concatenates_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x1_S32x3x252x252x16_d4 : Shape.Concatenates [S32x3x252x252x1, S32x3x252x252x1, S32x3x252x252x1, S32x3x252x252x1, S32x3x252x252x1, S32x3x252x252x1, S32x3x252x252x1, S32x3x252x252x1, S32x3x252x252x1, S32x3x252x252x1, S32x3x252x252x1, S32x3x252x252x1, S32x3x252x252x1, S32x3x252x252x1, S32x3x252x252x1, S32x3x252x252x1] S32x3x252x252x16 4
  concatenates_S32x3x252x252x1_S32x3x252x252x1_S32x3x252x252x1_S32x3x252x252x1_S32x3x252x252x1_S32x3x252x252x1_S32x3x252x252x1_S32x3x252x252x1_S32x3x252x252x1_S32x3x252x252x9_d4 : Shape.Concatenates [S32x3x252x252x1, S32x3x252x252x1, S32x3x252x252x1, S32x3x252x252x1, S32x3x252x252x1, S32x3x252x252x1, S32x3x252x252x1, S32x3x252x252x1, S32x3x252x252x1] S32x3x252x252x9 4
  concatenates_S32x3x252x252x16_S32x3x252x252x9_S32x3x252x252x25_d4 : Shape.Concatenates [S32x3x252x252x16, S32x3x252x252x9] S32x3x252x252x25 4
  slices_S32x3x252x252x25_S32x3x252x252x1_0_0_0_0_12 : S32x3x252x252x25.Slices ![0, 0, 0, 0, 12] S32x3x252x252x1
  bcast_S32x3x252x252x1_S32x3x252x252x25_0_1_2_3_4 : S32x3x252x252x1.BroadcastsInDim S32x3x252x252x25 (![0, 1, 2, 3, 4] : Fin 5 → Fin S32x3x252x252x25.rank)
  bcast_S_S32x3x252x252x25 : S_.BroadcastsInDim S32x3x252x252x25 (![] : Fin 0 → Fin S32x3x252x252x25.rank)
  reducesTo_S32x3x252x252x25_S32x3x252x252_d4 : S32x3x252x252x25.ReducesTo [4] S32x3x252x252
  h_S_ : 0 < S_.numel
  pads_S32x3x252x252_S32x3x256x256_000_000_220_220 : S32x3x252x252.Pads (![0, 0, 2, 2] : Fin 4 → Nat) ![0, 0, 2, 2] ![0, 0, 0, 0] S32x3x256x256
  shapeCasts_S32x3x256x256_S4x8x3x256x256 : S32x3x256x256.ShapeCasts S4x8x3x256x256

variable [Facts₀]

class Facts : Prop extends Facts₀ where

variable [Facts]
-- ==== Proof.Finite.lean ====
/-
  The precondition read back: every entry of the input is a real number.  The precondition is the conjunction, over
  all entries, of |x| < +∞; an extended real whose absolute value max x (-x) is below +∞ is neither infinity.
-/
import proofs.«149960_j28905129902695_2_alg».proof.Pre_finite_inputs
import Idealize.ShloMosaic.Lib.ReduceAll
import Idealize.ShloMosaic.Lib.ValueIdx
import Idealize.ShloMosaic.PureOps.Ideal.Laws

noncomputable section

namespace Cert.Hist

open Idealize.ShloMosaic

/-- An extended real with |x| < +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton Cert.Pre_finite_inputs.S_.Idx := ⟨fun a b => funext fun d => d.elim0⟩

/-- Under the precondition every entry of the input is a real number. -/
theorem real_of_pre [Cert.Pre_finite_inputs.Facts] (x : FVec Ideal Cert.Pre_finite_inputs.S4x8x3x256x256 .f32)
    (h : Cert.Pre_finite_inputs.fn (F := Ideal) x = fun _ => 1#1) (j : Cert.Pre_finite_inputs.S4x8x3x256x256.Idx) :
    ∃ r : ℝ, x j = (r : EReal) := by
  have h0 := congrFun h ValueIdx.ix0
  dsimp only [Cert.Pre_finite_inputs.fn] at h0
  have hj := Host.reduce_andi_all _ _ _ _ _ h0 j
  exact real_of_abs_lt_top (x j) hj

end Cert.Hist

end
-- ==== Proof.Consts.lean ====
/-
  The two float constants of the triangular weight that have to be read as real numbers: the kernel multiplies the
  absolute difference by 2 (the reciprocal of the bandwidth 1/2, folded in the source), the reference divides it by
  1/2.  Both patterns are exact dyadics.
-/
import Idealize.ShloMosaic.PureOps.Ideal
import Idealize.ShloMosaic.PureOps.Ideal.Laws
import Idealize.ShloMosaic.Lib.IdealHost

noncomputable section

namespace Cert.Hist

open Idealize.ShloMosaic

/-- The pattern `0x40000000` denotes the real number 2. -/
theorem ofBits_two : Ideal.ofBits .f32 0x40000000#32 = ((2 : ℝ) : EReal) := by
  simp [Ideal.ofBits, Ideal.ieee, -EReal.coe_mul]; norm_num

/-- The pattern `0x3F000000` denotes the real number 1/2. -/
theorem ofBits_half : Ideal.ofBits .f32 0x3F000000#32 = (((1 : ℝ) / 2 : ℝ) : EReal) := by
  simp [Ideal.ofBits, Ideal.ieee, -EReal.coe_mul]; norm_num

end Cert.Hist

end
-- ==== Proof.Roll.lean ====
/-
  A [12, 256, 256] block rolled cyclically along its rows or its columns, read at an index, and the interior mask
  (rows and columns 2 … 253) read at an index.

  Rolling by `s` moves the entry at coordinate `q` to `q + s` modulo 256, so the rolled block read at `q` is the
  block at `q + (256 - s)` modulo 256: `sh q (256 - s)`.
-/
import Idealize.ShloMosaic.Lib.ValueIdx
import Idealize.ShloMosaic.Lib.KernelVsHost
import Idealize.ShloMosaic.Lib.Pipeline.Value

noncomputable section

namespace Cert.Hist

open Idealize.ShloMosaic Idealize.ShloMosaic.ValueIdx

/-- The coordinate `q + d` modulo 256. -/
def sh (q : Fin 256) (d : Nat) : Fin 256 := ⟨(q.val + d) % 256, Nat.mod_lt _ (by decide)⟩

theorem sh_val (q : Fin 256) (d : Nat) : (sh q d).val = (q.val + d) % 256 := rfl

/-- Two moves compose to one, reduced modulo 256. -/
theorem sh_sh (q : Fin 256) (a b : Nat) : sh (sh q a) b = sh q ((a + b) % 256) := by
  apply Fin.ext
  simp only [sh_val]
  omega

theorem sh_zero (q : Fin 256) : sh q 0 = q := by
  apply Fin.ext
  have := q.isLt
  simp only [sh_val]
  omega

variable {α : Type}

/-- A block rolled along its ROWS (axis 1) by `s < 256`, read at (p, r, c), is the block at (p, r + (256 - s), c). -/
theorem roll_rows (sb : BitVec 32) (s : Nat) (hs : sb.toNat = s) (hlt : s < 256)
    (x : (⟨3, ![12, 256, 256]⟩ : Shape).Idx → α) (h : (⟨3, ![12, 256, 256]⟩ : Shape).Rotates 1 none)
    (p : Fin 12) (r c : Fin 256) :
    dynamicRotate 1 sb none x h (ix3 p r c) = x (ix3 p (sh r (256 - s)) c) := by
  refine dynamicRotate_apply 1 sb x h _ _ (fun b => ?_)
  match b with
  | ⟨0, _⟩ => rfl
  | ⟨1, _⟩ =>
    show (sh r (256 - s)).val = ((r.val + 256 - sb.toNat % 256) % 256)
    rw [hs, sh_val]; have := r.isLt; omega
  | ⟨2, _⟩ => rfl

/-- A block rolled along its COLUMNS (axis 2) by `s < 256`, read at (p, r, c), is the block at (p, r, c + (256 - s)). -/
theorem roll_cols (sb : BitVec 32) (s : Nat) (hs : sb.toNat = s) (hlt : s < 256)
    (x : (⟨3, ![12, 256, 256]⟩ : Shape).Idx → α) (h : (⟨3, ![12, 256, 256]⟩ : Shape).Rotates 2 none)
    (p : Fin 12) (r c : Fin 256) :
    dynamicRotate 2 sb none x h (ix3 p r c) = x (ix3 p r (sh c (256 - s))) := by
  refine dynamicRotate_apply 2 sb x h _ _ (fun b => ?_)
  match b with
  | ⟨0, _⟩ => rfl
  | ⟨1, _⟩ => rfl
  | ⟨2, _⟩ =>
    show (sh c (256 - s)).val = ((c.val + 256 - sb.toNat % 256) % 256)
    rw [hs, sh_val]; have := c.isLt; omega

/-! ## The interior mask -/

/-- Rows and columns 2 … 253: the pixels whose 5 × 5 window lies inside the image. -/
def interior (r c : Fin 256) : Bool :=
  decide (2 ≤ r.val) && decide (r.val ≤ 253) && decide (2 ≤ c.val) && decide (c.val ≤ 253)

theorem cmp_ge_two : ∀ q : Fin 256, IntOp.cmpi .sge (BitVec.ofNat 32 q.val) 2#32 = BitVec.ofBool (decide (2 ≤ q.val)) := by
  decide +kernel

theorem cmp_le_253 : ∀ q : Fin 256, IntOp.cmpi .sle (BitVec.ofNat 32 q.val) 253#32 = BitVec.ofBool (decide (q.val ≤ 253)) := by
  decide +kernel

theorem and_ofBool (a b : Bool) : IntOp.andi (BitVec.ofBool a) (BitVec.ofBool b) = BitVec.ofBool (a && b) := by
  cases a <;> cases b <;> rfl

theorem select_ofBool (b : Bool) (u v : α) : Scalar.select (BitVec.ofBool b) u v = if b then u else v := by
  cases b <;> simp [Scalar.select]

end Cert.Hist

end
-- ==== Proof.Tri.lean ====
/-
  The soft local histogram of one image, as a function of the image, in the two arrangements the two programs use,
  and the law joining them.

  The weight of a neighbour value `a` against the centre value `b` is the triangular kernel max(0, 1 - |a - b| / (1/2)).
  The reference sums it over the 25 neighbours of the 5 × 5 window in row-major order starting from 0 (`gform`); the
  kernel starts from 1 (the centre's weight), and for each of 12 offsets d adds the weight of the neighbour at +d and
  then the weight, computed AT the neighbour at -d, of the centre seen from there (`kform`).  On real values the
  weight is symmetric in its two arguments and is 1 on the diagonal, and 1/(1/2) = 2, so the two sums have the same 25
  terms: `kform_eq_gform`.  Both are 0 outside the interior.
-/
import Idealize.ShloMosaic.PureOps.Ideal
import proofs.«149960_j28905129902695_2_alg».proof.Proof.Roll

noncomputable section

namespace Cert.Hist

open Idealize.ShloMosaic

/-- The kernel's weight: the absolute difference as max (a - b) (-(a - b)), times 2. -/
def wK (a b : EReal) : EReal := max (1 - max (a - b) (-(a - b)) * ((2 : ℝ) : EReal)) 0

/-- The reference's weight: the absolute difference divided by 1/2. -/
def wR (a b : EReal) : EReal := max (1 - Ideal.div (max (a - b) (-(a - b))) (((1 : ℝ) / 2 : ℝ) : EReal)) 0

/-- The real triangular weight. -/
def T (a b : ℝ) : ℝ := max (1 - |a - b| * 2) 0

theorem T_comm (a b : ℝ) : T a b = T b a := by unfold T; rw [abs_sub_comm]

theorem T_self (a : ℝ) : T a a = 1 := by unfold T; simp

/-- Dividing by 1/2 is multiplying by 2, on every extended real. -/
theorem wR_eq_wK (a b : EReal) : wR a b = wK a b := by
  unfold wR wK
  rw [Ideal.div_coe (by norm_num : ((1 : ℝ) / 2) ≠ 0)]
  norm_num

/-- On real values the kernel's weight is the real triangular weight. -/
theorem wK_coe (a b : ℝ) : wK (a : EReal) (b : EReal) = ((T a b : ℝ) : EReal) := by
  unfold wK T
  rw [abs_eq_max_neg]
  norm_cast

/-- The kernel's value at pixel (r, c) of the image `f`. -/
def kform (f : Fin 256 → Fin 256 → EReal) (r c : Fin 256) : EReal :=
  if interior r c then
    (1
      + wK (f r (sh c 1)) (f r c)
      + wK (f r c) (f r (sh c 255))
      + wK (f r (sh c 2)) (f r c)
      + wK (f r c) (f r (sh c 254))
      + wK (f (sh r 1) (sh c 254)) (f r c)
      + wK (f r c) (f (sh r 255) (sh c 2))
      + wK (f (sh r 1) (sh c 255)) (f r c)
      + wK (f r c) (f (sh r 255) (sh c 1))
      + wK (f (sh r 1) c) (f r c)
      + wK (f r c) (f (sh r 255) c)
      + wK (f (sh r 1) (sh c 1)) (f r c)
      + wK (f r c) (f (sh r 255) (sh c 255))
      + wK (f (sh r 1) (sh c 2)) (f r c)
      + wK (f r c) (f (sh r 255) (sh c 254))
      + wK (f (sh r 2) (sh c 254)) (f r c)
      + wK (f r c) (f (sh r 254) (sh c 2))
      + wK (f (sh r 2) (sh c 255)) (f r c)
      + wK (f r c) (f (sh r 254) (sh c 1))
      + wK (f (sh r 2) c) (f r c)
      + wK (f r c) (f (sh r 254) c)
      + wK (f (sh r 2) (sh c 1)) (f r c)
      + wK (f r c) (f (sh r 254) (sh c 255))
      + wK (f (sh r 2) (sh c 2)) (f r c)
      + wK (f r c) (f (sh r 254) (sh c 254)))
  else 0

/-- The reference's value at pixel (r, c) of the image `f`: window entry k is the neighbour at row r - 2 + k / 5 and
    column c - 2 + k % 5 (the coordinates taken modulo 256, which changes nothing in the interior). -/
def gform (f : Fin 256 → Fin 256 → EReal) (r c : Fin 256) : EReal :=
  if interior r c then
    0 + ∑ k : Fin 25, wR (f (sh r ((254 + k.val / 5) % 256)) (sh c ((254 + k.val % 5) % 256))) (f r c)
  else 0

/-- On an image of real numbers the two arrangements agree. -/
theorem kform_eq_gform (f : Fin 256 → Fin 256 → EReal) (hf : ∀ r c, ∃ x : ℝ, f r c = (x : EReal)) (r c : Fin 256) :
    kform f r c = gform f r c := by
  choose g hg using hf
  unfold kform gform
  cases interior r c
  · rfl
  · simp only [if_true, Finset.sum_fin_eq_sum_range, Finset.sum_range_succ, Finset.sum_range_zero]
    simp only [wR_eq_wK, hg, wK_coe]
    simp only [Nat.reduceLT, dite_true, Nat.reduceDiv, Nat.reduceMod, Nat.reduceAdd, sh_zero, T_self]
    have hc : ∀ y : ℝ, T (g r c) y = T y (g r c) := fun y => T_comm _ _
    simp only [hc]
    norm_cast
    ring

end Cert.Hist

end
-- ==== Proof.RefPatches.lean ====
/-
  The reference's stack of the 25 shifted windows, read at an entry: entry k of the patch axis at window position
  (r', c') is the reshaped input at row k / 5 + r' and column k % 5 + c' — window k is the slice of the image that
  starts at (k / 5, k % 5), given a unit axis, and the 25 windows are joined along that axis (16 and 9, then both).
-/
import proofs.«149960_j28905129902695_2_alg».proof.Proof.RefReadP
import Idealize.ShloMosaic.Lib.Pipeline.Value
import Idealize.ShloMosaic.Lib.ValueIdx

set_option maxRecDepth 16384

noncomputable section

namespace Cert.Hist.Ref

open Cert.ReferenceIdeal Cert.ReferenceIdeal.ReadP Idealize.ShloMosaic Idealize.ShloMosaic.ValueIdx

/-! Window j with its unit axis, at (B, ch, r', c', 0): the image at (B, ch, j / 5 + r', j % 5 + c'). -/

theorem piece_0 (x : S4x8x3x256x256.Idx → EReal) (B : Fin 32) (ch : Fin 3) (r' c' : Fin 252) (z : Fin 1) :
    val_main_v26 (F := Ideal) x (ix5 B ch r' c' z) = val_main_v0 (F := Ideal) x (ix4 B ch ⟨0 + r'.val, by have := r'.isLt; omega⟩ ⟨0 + c'.val, by have := c'.isLt; omega⟩) := by
  rw [val_main_v26_apply, val_main_v1_apply]
  refine congrArg _ (funext fun d => ?_)
  match d with
  | ⟨0, _⟩ => rfl
  | ⟨1, _⟩ => rfl
  | ⟨2, _⟩ => exact Fin.ext (Nat.zero_add _).symm
  | ⟨3, _⟩ => exact Fin.ext (Nat.zero_add _).symm

theorem piece_1 (x : S4x8x3x256x256.Idx → EReal) (B : Fin 32) (ch : Fin 3) (r' c' : Fin 252) (z : Fin 1) :
    val_main_v27 (F := Ideal) x (ix5 B ch r' c' z) = val_main_v0 (F := Ideal) x (ix4 B ch ⟨0 + r'.val, by have := r'.isLt; omega⟩ ⟨1 + c'.val, by have := c'.isLt; omega⟩) := by
  rw [val_main_v27_apply, val_main_v2_apply]
  refine congrArg _ (funext fun d => ?_)
  match d with
  | ⟨0, _⟩ => rfl
  | ⟨1, _⟩ => rfl
  | ⟨2, _⟩ => exact Fin.ext (Nat.zero_add _).symm
  | ⟨3, _⟩ => rfl

theorem piece_2 (x : S4x8x3x256x256.Idx → EReal) (B : Fin 32) (ch : Fin 3) (r' c' : Fin 252) (z : Fin 1) :
    val_main_v28 (F := Ideal) x (ix5 B ch r' c' z) = val_main_v0 (F := Ideal) x (ix4 B ch ⟨0 + r'.val, by have := r'.isLt; omega⟩ ⟨2 + c'.val, by have := c'.isLt; omega⟩) := by
  rw [val_main_v28_apply, val_main_v3_apply]
  refine congrArg _ (funext fun d => ?_)
  match d with
  | ⟨0, _⟩ => rfl
  | ⟨1, _⟩ => rfl
  | ⟨2, _⟩ => exact Fin.ext (Nat.zero_add _).symm
  | ⟨3, _⟩ => rfl

theorem piece_3 (x : S4x8x3x256x256.Idx → EReal) (B : Fin 32) (ch : Fin 3) (r' c' : Fin 252) (z : Fin 1) :
    val_main_v29 (F := Ideal) x (ix5 B ch r' c' z) = val_main_v0 (F := Ideal) x (ix4 B ch ⟨0 + r'.val, by have := r'.isLt; omega⟩ ⟨3 + c'.val, by have := c'.isLt; omega⟩) := by
  rw [val_main_v29_apply, val_main_v4_apply]
  refine congrArg _ (funext fun d => ?_)
  match d with
  | ⟨0, _⟩ => rfl
  | ⟨1, _⟩ => rfl
  | ⟨2, _⟩ => exact Fin.ext (Nat.zero_add _).symm
  | ⟨3, _⟩ => rfl

theorem piece_4 (x : S4x8x3x256x256.Idx → EReal) (B : Fin 32) (ch : Fin 3) (r' c' : Fin 252) (z : Fin 1) :
    val_main_v30 (F := Ideal) x (ix5 B ch r' c' z) = val_main_v0 (F := Ideal) x (ix4 B ch ⟨0 + r'.val, by have := r'.isLt; omega⟩ ⟨4 + c'.val, by have := c'.isLt; omega⟩) := by
  rw [val_main_v30_apply, val_main_v5_apply]
  refine congrArg _ (funext fun d => ?_)
  match d with
  | ⟨0, _⟩ => rfl
  | ⟨1, _⟩ => rfl
  | ⟨2, _⟩ => exact Fin.ext (Nat.zero_add _).symm
  | ⟨3, _⟩ => rfl

theorem piece_5 (x : S4x8x3x256x256.Idx → EReal) (B : Fin 32) (ch : Fin 3) (r' c' : Fin 252) (z : Fin 1) :
    val_main_v31 (F := Ideal) x (ix5 B ch r' c' z) = val_main_v0 (F := Ideal) x (ix4 B ch ⟨1 + r'.val, by have := r'.isLt; omega⟩ ⟨0 + c'.val, by have := c'.isLt; omega⟩) := by
  rw [val_main_v31_apply, val_main_v6_apply]
  refine congrArg _ (funext fun d => ?_)
  match d with
  | ⟨0, _⟩ => rfl
  | ⟨1, _⟩ => rfl
  | ⟨2, _⟩ => rfl
  | ⟨3, _⟩ => exact Fin.ext (Nat.zero_add _).symm

theorem piece_6 (x : S4x8x3x256x256.Idx → EReal) (B : Fin 32) (ch : Fin 3) (r' c' : Fin 252) (z : Fin 1) :
    val_main_v32 (F := Ideal) x (ix5 B ch r' c' z) = val_main_v0 (F := Ideal) x (ix4 B ch ⟨1 + r'.val, by have := r'.isLt; omega⟩ ⟨1 + c'.val, by have := c'.isLt; omega⟩) := by
  rw [val_main_v32_apply, val_main_v7_apply]
  refine congrArg _ (funext fun d => ?_)
  match d with
  | ⟨0, _⟩ => rfl
  | ⟨1, _⟩ => rfl
  | ⟨2, _⟩ => rfl
  | ⟨3, _⟩ => rfl

theorem piece_7 (x : S4x8x3x256x256.Idx → EReal) (B : Fin 32) (ch : Fin 3) (r' c' : Fin 252) (z : Fin 1) :
    val_main_v33 (F := Ideal) x (ix5 B ch r' c' z) = val_main_v0 (F := Ideal) x (ix4 B ch ⟨1 + r'.val, by have := r'.isLt; omega⟩ ⟨2 + c'.val, by have := c'.isLt; omega⟩) := by
  rw [val_main_v33_apply, val_main_v8_apply]
  refine congrArg _ (funext fun d => ?_)
  match d with
  | ⟨0, _⟩ => rfl
  | ⟨1, _⟩ => rfl
  | ⟨2, _⟩ => rfl
  | ⟨3, _⟩ => rfl

theorem piece_8 (x : S4x8x3x256x256.Idx → EReal) (B : Fin 32) (ch : Fin 3) (r' c' : Fin 252) (z : Fin 1) :
    val_main_v34 (F := Ideal) x (ix5 B ch r' c' z) = val_main_v0 (F := Ideal) x (ix4 B ch ⟨1 + r'.val, by have := r'.isLt; omega⟩ ⟨3 + c'.val, by have := c'.isLt; omega⟩) := by
  rw [val_main_v34_apply, val_main_v9_apply]
  refine congrArg _ (funext fun d => ?_)
  match d with
  | ⟨0, _⟩ => rfl
  | ⟨1, _⟩ => rfl
  | ⟨2, _⟩ => rfl
  | ⟨3, _⟩ => rfl

theorem piece_9 (x : S4x8x3x256x256.Idx → EReal) (B : Fin 32) (ch : Fin 3) (r' c' : Fin 252) (z : Fin 1) :
    val_main_v35 (F := Ideal) x (ix5 B ch r' c' z) = val_main_v0 (F := Ideal) x (ix4 B ch ⟨1 + r'.val, by have := r'.isLt; omega⟩ ⟨4 + c'.val, by have := c'.isLt; omega⟩) := by
  rw [val_main_v35_apply, val_main_v10_apply]
  refine congrArg _ (funext fun d => ?_)
  match d with
  | ⟨0, _⟩ => rfl
  | ⟨1, _⟩ => rfl
  | ⟨2, _⟩ => rfl
  | ⟨3, _⟩ => rfl

theorem piece_10 (x : S4x8x3x256x256.Idx → EReal) (B : Fin 32) (ch : Fin 3) (r' c' : Fin 252) (z : Fin 1) :
    val_main_v36 (F := Ideal) x (ix5 B ch r' c' z) = val_main_v0 (F := Ideal) x (ix4 B ch ⟨2 + r'.val, by have := r'.isLt; omega⟩ ⟨0 + c'.val, by have := c'.isLt; omega⟩) := by
  rw [val_main_v36_apply, val_main_v11_apply]
  refine congrArg _ (funext fun d => ?_)
  match d with
  | ⟨0, _⟩ => rfl
  | ⟨1, _⟩ => rfl
  | ⟨2, _⟩ => rfl
  | ⟨3, _⟩ => exact Fin.ext (Nat.zero_add _).symm

theorem piece_11 (x : S4x8x3x256x256.Idx → EReal) (B : Fin 32) (ch : Fin 3) (r' c' : Fin 252) (z : Fin 1) :
    val_main_v37 (F := Ideal) x (ix5 B ch r' c' z) = val_main_v0 (F := Ideal) x (ix4 B ch ⟨2 + r'.val, by have := r'.isLt; omega⟩ ⟨1 + c'.val, by have := c'.isLt; omega⟩) := by
  rw [val_main_v37_apply, val_main_v12_apply]
  refine congrArg _ (funext fun d => ?_)
  match d with
  | ⟨0, _⟩ => rfl
  | ⟨1, _⟩ => rfl
  | ⟨2, _⟩ => rfl
  | ⟨3, _⟩ => rfl

theorem piece_12 (x : S4x8x3x256x256.Idx → EReal) (B : Fin 32) (ch : Fin 3) (r' c' : Fin 252) (z : Fin 1) :
    val_main_v38 (F := Ideal) x (ix5 B ch r' c' z) = val_main_v0 (F := Ideal) x (ix4 B ch ⟨2 + r'.val, by have := r'.isLt; omega⟩ ⟨2 + c'.val, by have := c'.isLt; omega⟩) := by
  rw [val_main_v38_apply, val_main_v13_apply]
  refine congrArg _ (funext fun d => ?_)
  match d with
  | ⟨0, _⟩ => rfl
  | ⟨1, _⟩ => rfl
  | ⟨2, _⟩ => rfl
  | ⟨3, _⟩ => rfl

theorem piece_13 (x : S4x8x3x256x256.Idx → EReal) (B : Fin 32) (ch : Fin 3) (r' c' : Fin 252) (z : Fin 1) :
    val_main_v39 (F := Ideal) x (ix5 B ch r' c' z) = val_main_v0 (F := Ideal) x (ix4 B ch ⟨2 + r'.val, by have := r'.isLt; omega⟩ ⟨3 + c'.val, by have := c'.isLt; omega⟩) := by
  rw [val_main_v39_apply, val_main_v14_apply]
  refine congrArg _ (funext fun d => ?_)
  match d with
  | ⟨0, _⟩ => rfl
  | ⟨1, _⟩ => rfl
  | ⟨2, _⟩ => rfl
  | ⟨3, _⟩ => rfl

theorem piece_14 (x : S4x8x3x256x256.Idx → EReal) (B : Fin 32) (ch : Fin 3) (r' c' : Fin 252) (z : Fin 1) :
    val_main_v40 (F := Ideal) x (ix5 B ch r' c' z) = val_main_v0 (F := Ideal) x (ix4 B ch ⟨2 + r'.val, by have := r'.isLt; omega⟩ ⟨4 + c'.val, by have := c'.isLt; omega⟩) := by
  rw [val_main_v40_apply, val_main_v15_apply]
  refine congrArg _ (funext fun d => ?_)
  match d with
  | ⟨0, _⟩ => rfl
  | ⟨1, _⟩ => rfl
  | ⟨2, _⟩ => rfl
  | ⟨3, _⟩ => rfl

theorem piece_15 (x : S4x8x3x256x256.Idx → EReal) (B : Fin 32) (ch : Fin 3) (r' c' : Fin 252) (z : Fin 1) :
    val_main_v41 (F := Ideal) x (ix5 B ch r' c' z) = val_main_v0 (F := Ideal) x (ix4 B ch ⟨3 + r'.val, by have := r'.isLt; omega⟩ ⟨0 + c'.val, by have := c'.isLt; omega⟩) := by
  rw [val_main_v41_apply, val_main_v16_apply]
  refine congrArg _ (funext fun d => ?_)
  match d with
  | ⟨0, _⟩ => rfl
  | ⟨1, _⟩ => rfl
  | ⟨2, _⟩ => rfl
  | ⟨3, _⟩ => exact Fin.ext (Nat.zero_add _).symm

theorem piece_16 (x : S4x8x3x256x256.Idx → EReal) (B : Fin 32) (ch : Fin 3) (r' c' : Fin 252) (z : Fin 1) :
    val_main_v42 (F := Ideal) x (ix5 B ch r' c' z) = val_main_v0 (F := Ideal) x (ix4 B ch ⟨3 + r'.val, by have := r'.isLt; omega⟩ ⟨1 + c'.val, by have := c'.isLt; omega⟩) := by
  rw [val_main_v42_apply, val_main_v17_apply]
  refine congrArg _ (funext fun d => ?_)
  match d with
  | ⟨0, _⟩ => rfl
  | ⟨1, _⟩ => rfl
  | ⟨2, _⟩ => rfl
  | ⟨3, _⟩ => rfl

theorem piece_17 (x : S4x8x3x256x256.Idx → EReal) (B : Fin 32) (ch : Fin 3) (r' c' : Fin 252) (z : Fin 1) :
    val_main_v43 (F := Ideal) x (ix5 B ch r' c' z) = val_main_v0 (F := Ideal) x (ix4 B ch ⟨3 + r'.val, by have := r'.isLt; omega⟩ ⟨2 + c'.val, by have := c'.isLt; omega⟩) := by
  rw [val_main_v43_apply, val_main_v18_apply]
  refine congrArg _ (funext fun d => ?_)
  match d with
  | ⟨0, _⟩ => rfl
  | ⟨1, _⟩ => rfl
  | ⟨2, _⟩ => rfl
  | ⟨3, _⟩ => rfl

theorem piece_18 (x : S4x8x3x256x256.Idx → EReal) (B : Fin 32) (ch : Fin 3) (r' c' : Fin 252) (z : Fin 1) :
    val_main_v44 (F := Ideal) x (ix5 B ch r' c' z) = val_main_v0 (F := Ideal) x (ix4 B ch ⟨3 + r'.val, by have := r'.isLt; omega⟩ ⟨3 + c'.val, by have := c'.isLt; omega⟩) := by
  rw [val_main_v44_apply, val_main_v19_apply]
  refine congrArg _ (funext fun d => ?_)
  match d with
  | ⟨0, _⟩ => rfl
  | ⟨1, _⟩ => rfl
  | ⟨2, _⟩ => rfl
  | ⟨3, _⟩ => rfl

theorem piece_19 (x : S4x8x3x256x256.Idx → EReal) (B : Fin 32) (ch : Fin 3) (r' c' : Fin 252) (z : Fin 1) :
    val_main_v45 (F := Ideal) x (ix5 B ch r' c' z) = val_main_v0 (F := Ideal) x (ix4 B ch ⟨3 + r'.val, by have := r'.isLt; omega⟩ ⟨4 + c'.val, by have := c'.isLt; omega⟩) := by
  rw [val_main_v45_apply, val_main_v20_apply]
  refine congrArg _ (funext fun d => ?_)
  match d with
  | ⟨0, _⟩ => rfl
  | ⟨1, _⟩ => rfl
  | ⟨2, _⟩ => rfl
  | ⟨3, _⟩ => rfl

theorem piece_20 (x : S4x8x3x256x256.Idx → EReal) (B : Fin 32) (ch : Fin 3) (r' c' : Fin 252) (z : Fin 1) :
    val_main_v46 (F := Ideal) x (ix5 B ch r' c' z) = val_main_v0 (F := Ideal) x (ix4 B ch ⟨4 + r'.val, by have := r'.isLt; omega⟩ ⟨0 + c'.val, by have := c'.isLt; omega⟩) := by
  rw [val_main_v46_apply, val_main_v21_apply]
  refine congrArg _ (funext fun d => ?_)
  match d with
  | ⟨0, _⟩ => rfl
  | ⟨1, _⟩ => rfl
  | ⟨2, _⟩ => rfl
  | ⟨3, _⟩ => exact Fin.ext (Nat.zero_add _).symm

theorem piece_21 (x : S4x8x3x256x256.Idx → EReal) (B : Fin 32) (ch : Fin 3) (r' c' : Fin 252) (z : Fin 1) :
    val_main_v47 (F := Ideal) x (ix5 B ch r' c' z) = val_main_v0 (F := Ideal) x (ix4 B ch ⟨4 + r'.val, by have := r'.isLt; omega⟩ ⟨1 + c'.val, by have := c'.isLt; omega⟩) := by
  rw [val_main_v47_apply, val_main_v22_apply]
  refine congrArg _ (funext fun d => ?_)
  match d with
  | ⟨0, _⟩ => rfl
  | ⟨1, _⟩ => rfl
  | ⟨2, _⟩ => rfl
  | ⟨3, _⟩ => rfl

theorem piece_22 (x : S4x8x3x256x256.Idx → EReal) (B : Fin 32) (ch : Fin 3) (r' c' : Fin 252) (z : Fin 1) :
    val_main_v48 (F := Ideal) x (ix5 B ch r' c' z) = val_main_v0 (F := Ideal) x (ix4 B ch ⟨4 + r'.val, by have := r'.isLt; omega⟩ ⟨2 + c'.val, by have := c'.isLt; omega⟩) := by
  rw [val_main_v48_apply, val_main_v23_apply]
  refine congrArg _ (funext fun d => ?_)
  match d with
  | ⟨0, _⟩ => rfl
  | ⟨1, _⟩ => rfl
  | ⟨2, _⟩ => rfl
  | ⟨3, _⟩ => rfl

theorem piece_23 (x : S4x8x3x256x256.Idx → EReal) (B : Fin 32) (ch : Fin 3) (r' c' : Fin 252) (z : Fin 1) :
    val_main_v49 (F := Ideal) x (ix5 B ch r' c' z) = val_main_v0 (F := Ideal) x (ix4 B ch ⟨4 + r'.val, by have := r'.isLt; omega⟩ ⟨3 + c'.val, by have := c'.isLt; omega⟩) := by
  rw [val_main_v49_apply, val_main_v24_apply]
  refine congrArg _ (funext fun d => ?_)
  match d with
  | ⟨0, _⟩ => rfl
  | ⟨1, _⟩ => rfl
  | ⟨2, _⟩ => rfl
  | ⟨3, _⟩ => rfl

theorem piece_24 (x : S4x8x3x256x256.Idx → EReal) (B : Fin 32) (ch : Fin 3) (r' c' : Fin 252) (z : Fin 1) :
    val_main_v50 (F := Ideal) x (ix5 B ch r' c' z) = val_main_v0 (F := Ideal) x (ix4 B ch ⟨4 + r'.val, by have := r'.isLt; omega⟩ ⟨4 + c'.val, by have := c'.isLt; omega⟩) := by
  rw [val_main_v50_apply, val_main_v25_apply]
  refine congrArg _ (funext fun d => ?_)
  match d with
  | ⟨0, _⟩ => rfl
  | ⟨1, _⟩ => rfl
  | ⟨2, _⟩ => rfl
  | ⟨3, _⟩ => rfl

set_option maxHeartbeats 8000000 in
/-- The joined windows at patch entry k: the image at row k / 5 + r' and column k % 5 + c'. -/
theorem patch (x : S4x8x3x256x256.Idx → EReal) (B : Fin 32) (ch : Fin 3) (r' c' : Fin 252) :
    ∀ (k : Fin 25) (R C : Fin 256), R.val = k.val / 5 + r'.val → C.val = k.val % 5 + c'.val →
      val_main_v53 (F := Ideal) x (ix5 B ch r' c' k) = val_main_v0 (F := Ideal) x (ix4 B ch R C)
  | ⟨0, hk⟩, R, C, hR, hC => by
    unfold val_main_v53
    refine (concatenate_pair_apply_left (t := S32x3x252x252x25) (s₁ := S32x3x252x252x16) (s₂ := S32x3x252x252x9) 4 _ _ _
      (ix5 B ch r' c' (⟨0, hk⟩ : Fin 25)) rfl
      (ix5 B ch r' c' (⟨0, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨0, by decide⟩ : Fin 16)) 0 (by simp) S32x3x252x252x1 (val_main_v26 (F := Ideal) x) rfl rfl 0 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨0 + r'.val, by have := r'.isLt; omega⟩ := Fin.ext (by simp only [Fin.val_mk] at hR; omega)
    have eC : C = ⟨0 + c'.val, by have := c'.isLt; omega⟩ := Fin.ext (by simp only [Fin.val_mk] at hC; omega)
    rw [eR, eC]
    exact piece_0 x B ch r' c' 0
  | ⟨1, hk⟩, R, C, hR, hC => by
    unfold val_main_v53
    refine (concatenate_pair_apply_left (t := S32x3x252x252x25) (s₁ := S32x3x252x252x16) (s₂ := S32x3x252x252x9) 4 _ _ _
      (ix5 B ch r' c' (⟨1, hk⟩ : Fin 25)) rfl
      (ix5 B ch r' c' (⟨1, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨1, by decide⟩ : Fin 16)) 1 (by simp) S32x3x252x252x1 (val_main_v27 (F := Ideal) x) rfl rfl 1 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨0 + r'.val, by have := r'.isLt; omega⟩ := Fin.ext (by simp only [Fin.val_mk] at hR; omega)
    have eC : C = ⟨1 + c'.val, by have := c'.isLt; omega⟩ := Fin.ext (by simp only [Fin.val_mk] at hC; omega)
    rw [eR, eC]
    exact piece_1 x B ch r' c' 0
  | ⟨2, hk⟩, R, C, hR, hC => by
    unfold val_main_v53
    refine (concatenate_pair_apply_left (t := S32x3x252x252x25) (s₁ := S32x3x252x252x16) (s₂ := S32x3x252x252x9) 4 _ _ _
      (ix5 B ch r' c' (⟨2, hk⟩ : Fin 25)) rfl
      (ix5 B ch r' c' (⟨2, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨2, by decide⟩ : Fin 16)) 2 (by simp) S32x3x252x252x1 (val_main_v28 (F := Ideal) x) rfl rfl 2 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨0 + r'.val, by have := r'.isLt; omega⟩ := Fin.ext (by simp only [Fin.val_mk] at hR; omega)
    have eC : C = ⟨2 + c'.val, by have := c'.isLt; omega⟩ := Fin.ext (by simp only [Fin.val_mk] at hC; omega)
    rw [eR, eC]
    exact piece_2 x B ch r' c' 0
  | ⟨3, hk⟩, R, C, hR, hC => by
    unfold val_main_v53
    refine (concatenate_pair_apply_left (t := S32x3x252x252x25) (s₁ := S32x3x252x252x16) (s₂ := S32x3x252x252x9) 4 _ _ _
      (ix5 B ch r' c' (⟨3, hk⟩ : Fin 25)) rfl
      (ix5 B ch r' c' (⟨3, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨3, by decide⟩ : Fin 16)) 3 (by simp) S32x3x252x252x1 (val_main_v29 (F := Ideal) x) rfl rfl 3 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨0 + r'.val, by have := r'.isLt; omega⟩ := Fin.ext (by simp only [Fin.val_mk] at hR; omega)
    have eC : C = ⟨3 + c'.val, by have := c'.isLt; omega⟩ := Fin.ext (by simp only [Fin.val_mk] at hC; omega)
    rw [eR, eC]
    exact piece_3 x B ch r' c' 0
  | ⟨4, hk⟩, R, C, hR, hC => by
    unfold val_main_v53
    refine (concatenate_pair_apply_left (t := S32x3x252x252x25) (s₁ := S32x3x252x252x16) (s₂ := S32x3x252x252x9) 4 _ _ _
      (ix5 B ch r' c' (⟨4, hk⟩ : Fin 25)) rfl
      (ix5 B ch r' c' (⟨4, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨4, by decide⟩ : Fin 16)) 4 (by simp) S32x3x252x252x1 (val_main_v30 (F := Ideal) x) rfl rfl 4 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨0 + r'.val, by have := r'.isLt; omega⟩ := Fin.ext (by simp only [Fin.val_mk] at hR; omega)
    have eC : C = ⟨4 + c'.val, by have := c'.isLt; omega⟩ := Fin.ext (by simp only [Fin.val_mk] at hC; omega)
    rw [eR, eC]
    exact piece_4 x B ch r' c' 0
  | ⟨5, hk⟩, R, C, hR, hC => by
    unfold val_main_v53
    refine (concatenate_pair_apply_left (t := S32x3x252x252x25) (s₁ := S32x3x252x252x16) (s₂ := S32x3x252x252x9) 4 _ _ _
      (ix5 B ch r' c' (⟨5, hk⟩ : Fin 25)) rfl
      (ix5 B ch r' c' (⟨5, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨5, by decide⟩ : Fin 16)) 5 (by simp) S32x3x252x252x1 (val_main_v31 (F := Ideal) x) rfl rfl 5 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨1 + r'.val, by have := r'.isLt; omega⟩ := Fin.ext (by simp only [Fin.val_mk] at hR; omega)
    have eC : C = ⟨0 + c'.val, by have := c'.isLt; omega⟩ := Fin.ext (by simp only [Fin.val_mk] at hC; omega)
    rw [eR, eC]
    exact piece_5 x B ch r' c' 0
  | ⟨6, hk⟩, R, C, hR, hC => by
    unfold val_main_v53
    refine (concatenate_pair_apply_left (t := S32x3x252x252x25) (s₁ := S32x3x252x252x16) (s₂ := S32x3x252x252x9) 4 _ _ _
      (ix5 B ch r' c' (⟨6, hk⟩ : Fin 25)) rfl
      (ix5 B ch r' c' (⟨6, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨6, by decide⟩ : Fin 16)) 6 (by simp) S32x3x252x252x1 (val_main_v32 (F := Ideal) x) rfl rfl 6 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨1 + r'.val, by have := r'.isLt; omega⟩ := Fin.ext (by simp only [Fin.val_mk] at hR; omega)
    have eC : C = ⟨1 + c'.val, by have := c'.isLt; omega⟩ := Fin.ext (by simp only [Fin.val_mk] at hC; omega)
    rw [eR, eC]
    exact piece_6 x B ch r' c' 0
  | ⟨7, hk⟩, R, C, hR, hC => by
    unfold val_main_v53
    refine (concatenate_pair_apply_left (t := S32x3x252x252x25) (s₁ := S32x3x252x252x16) (s₂ := S32x3x252x252x9) 4 _ _ _
      (ix5 B ch r' c' (⟨7, hk⟩ : Fin 25)) rfl
      (ix5 B ch r' c' (⟨7, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨7, by decide⟩ : Fin 16)) 7 (by simp) S32x3x252x252x1 (val_main_v33 (F := Ideal) x) rfl rfl 7 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨1 + r'.val, by have := r'.isLt; omega⟩ := Fin.ext (by simp only [Fin.val_mk] at hR; omega)
    have eC : C = ⟨2 + c'.val, by have := c'.isLt; omega⟩ := Fin.ext (by simp only [Fin.val_mk] at hC; omega)
    rw [eR, eC]
    exact piece_7 x B ch r' c' 0
  | ⟨8, hk⟩, R, C, hR, hC => by
    unfold val_main_v53
    refine (concatenate_pair_apply_left (t := S32x3x252x252x25) (s₁ := S32x3x252x252x16) (s₂ := S32x3x252x252x9) 4 _ _ _
      (ix5 B ch r' c' (⟨8, hk⟩ : Fin 25)) rfl
      (ix5 B ch r' c' (⟨8, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨8, by decide⟩ : Fin 16)) 8 (by simp) S32x3x252x252x1 (val_main_v34 (F := Ideal) x) rfl rfl 8 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨1 + r'.val, by have := r'.isLt; omega⟩ := Fin.ext (by simp only [Fin.val_mk] at hR; omega)
    have eC : C = ⟨3 + c'.val, by have := c'.isLt; omega⟩ := Fin.ext (by simp only [Fin.val_mk] at hC; omega)
    rw [eR, eC]
    exact piece_8 x B ch r' c' 0
  | ⟨9, hk⟩, R, C, hR, hC => by
    unfold val_main_v53
    refine (concatenate_pair_apply_left (t := S32x3x252x252x25) (s₁ := S32x3x252x252x16) (s₂ := S32x3x252x252x9) 4 _ _ _
      (ix5 B ch r' c' (⟨9, hk⟩ : Fin 25)) rfl
      (ix5 B ch r' c' (⟨9, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨9, by decide⟩ : Fin 16)) 9 (by simp) S32x3x252x252x1 (val_main_v35 (F := Ideal) x) rfl rfl 9 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨1 + r'.val, by have := r'.isLt; omega⟩ := Fin.ext (by simp only [Fin.val_mk] at hR; omega)
    have eC : C = ⟨4 + c'.val, by have := c'.isLt; omega⟩ := Fin.ext (by simp only [Fin.val_mk] at hC; omega)
    rw [eR, eC]
    exact piece_9 x B ch r' c' 0
  | ⟨10, hk⟩, R, C, hR, hC => by
    unfold val_main_v53
    refine (concatenate_pair_apply_left (t := S32x3x252x252x25) (s₁ := S32x3x252x252x16) (s₂ := S32x3x252x252x9) 4 _ _ _
      (ix5 B ch r' c' (⟨10, hk⟩ : Fin 25)) rfl
      (ix5 B ch r' c' (⟨10, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨10, by decide⟩ : Fin 16)) 10 (by simp) S32x3x252x252x1 (val_main_v36 (F := Ideal) x) rfl rfl 10 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨2 + r'.val, by have := r'.isLt; omega⟩ := Fin.ext (by simp only [Fin.val_mk] at hR; omega)
    have eC : C = ⟨0 + c'.val, by have := c'.isLt; omega⟩ := Fin.ext (by simp only [Fin.val_mk] at hC; omega)
    rw [eR, eC]
    exact piece_10 x B ch r' c' 0
  | ⟨11, hk⟩, R, C, hR, hC => by
    unfold val_main_v53
    refine (concatenate_pair_apply_left (t := S32x3x252x252x25) (s₁ := S32x3x252x252x16) (s₂ := S32x3x252x252x9) 4 _ _ _
      (ix5 B ch r' c' (⟨11, hk⟩ : Fin 25)) rfl
      (ix5 B ch r' c' (⟨11, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨11, by decide⟩ : Fin 16)) 11 (by simp) S32x3x252x252x1 (val_main_v37 (F := Ideal) x) rfl rfl 11 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨2 + r'.val, by have := r'.isLt; omega⟩ := Fin.ext (by simp only [Fin.val_mk] at hR; omega)
    have eC : C = ⟨1 + c'.val, by have := c'.isLt; omega⟩ := Fin.ext (by simp only [Fin.val_mk] at hC; omega)
    rw [eR, eC]
    exact piece_11 x B ch r' c' 0
  | ⟨12, hk⟩, R, C, hR, hC => by
    unfold val_main_v53
    refine (concatenate_pair_apply_left (t := S32x3x252x252x25) (s₁ := S32x3x252x252x16) (s₂ := S32x3x252x252x9) 4 _ _ _
      (ix5 B ch r' c' (⟨12, hk⟩ : Fin 25)) rfl
      (ix5 B ch r' c' (⟨12, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨12, by decide⟩ : Fin 16)) 12 (by simp) S32x3x252x252x1 (val_main_v38 (F := Ideal) x) rfl rfl 12 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨2 + r'.val, by have := r'.isLt; omega⟩ := Fin.ext (by simp only [Fin.val_mk] at hR; omega)
    have eC : C = ⟨2 + c'.val, by have := c'.isLt; omega⟩ := Fin.ext (by simp only [Fin.val_mk] at hC; omega)
    rw [eR, eC]
    exact piece_12 x B ch r' c' 0
  | ⟨13, hk⟩, R, C, hR, hC => by
    unfold val_main_v53
    refine (concatenate_pair_apply_left (t := S32x3x252x252x25) (s₁ := S32x3x252x252x16) (s₂ := S32x3x252x252x9) 4 _ _ _
      (ix5 B ch r' c' (⟨13, hk⟩ : Fin 25)) rfl
      (ix5 B ch r' c' (⟨13, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨13, by decide⟩ : Fin 16)) 13 (by simp) S32x3x252x252x1 (val_main_v39 (F := Ideal) x) rfl rfl 13 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨2 + r'.val, by have := r'.isLt; omega⟩ := Fin.ext (by simp only [Fin.val_mk] at hR; omega)
    have eC : C = ⟨3 + c'.val, by have := c'.isLt; omega⟩ := Fin.ext (by simp only [Fin.val_mk] at hC; omega)
    rw [eR, eC]
    exact piece_13 x B ch r' c' 0
  | ⟨14, hk⟩, R, C, hR, hC => by
    unfold val_main_v53
    refine (concatenate_pair_apply_left (t := S32x3x252x252x25) (s₁ := S32x3x252x252x16) (s₂ := S32x3x252x252x9) 4 _ _ _
      (ix5 B ch r' c' (⟨14, hk⟩ : Fin 25)) rfl
      (ix5 B ch r' c' (⟨14, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨14, by decide⟩ : Fin 16)) 14 (by simp) S32x3x252x252x1 (val_main_v40 (F := Ideal) x) rfl rfl 14 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨2 + r'.val, by have := r'.isLt; omega⟩ := Fin.ext (by simp only [Fin.val_mk] at hR; omega)
    have eC : C = ⟨4 + c'.val, by have := c'.isLt; omega⟩ := Fin.ext (by simp only [Fin.val_mk] at hC; omega)
    rw [eR, eC]
    exact piece_14 x B ch r' c' 0
  | ⟨15, hk⟩, R, C, hR, hC => by
    unfold val_main_v53
    refine (concatenate_pair_apply_left (t := S32x3x252x252x25) (s₁ := S32x3x252x252x16) (s₂ := S32x3x252x252x9) 4 _ _ _
      (ix5 B ch r' c' (⟨15, hk⟩ : Fin 25)) rfl
      (ix5 B ch r' c' (⟨15, by decide⟩ : Fin 16)) (fun b => match b with | ⟨0, _⟩ => rfl | ⟨1, _⟩ => rfl | ⟨2, _⟩ => rfl | ⟨3, _⟩ => rfl | ⟨4, _⟩ => rfl)).trans ?_
    unfold val_main_v51
    refine (concatenate_apply_piece (t := S32x3x252x252x16) 4 _ _ (ix5 B ch r' c' (⟨15, by decide⟩ : Fin 16)) 15 (by simp) S32x3x252x252x1 (val_main_v41 (F := Ideal) x) rfl rfl 15 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨3 + r'.val, by have := r'.isLt; omega⟩ := Fin.ext (by simp only [Fin.val_mk] at hR; omega)
    have eC : C = ⟨0 + c'.val, by have := c'.isLt; omega⟩ := Fin.ext (by simp only [Fin.val_mk] at hC; omega)
    rw [eR, eC]
    exact piece_15 x B ch r' c' 0
  | ⟨16, hk⟩, R, C, hR, hC => by
    unfold val_main_v53
    refine (concatenate_pair_apply_right (t := S32x3x252x252x25) (s₁ := S32x3x252x252x16) (s₂ := S32x3x252x252x9) 4 _ _ _
      (ix5 B ch r' c' (⟨16, hk⟩ : Fin 25)) rfl rfl
      (ix5 B ch r' c' (⟨0, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨0, by decide⟩ : Fin 9)) 0 (by simp) S32x3x252x252x1 (val_main_v42 (F := Ideal) x) rfl rfl 0 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨3 + r'.val, by have := r'.isLt; omega⟩ := Fin.ext (by simp only [Fin.val_mk] at hR; omega)
    have eC : C = ⟨1 + c'.val, by have := c'.isLt; omega⟩ := Fin.ext (by simp only [Fin.val_mk] at hC; omega)
    rw [eR, eC]
    exact piece_16 x B ch r' c' 0
  | ⟨17, hk⟩, R, C, hR, hC => by
    unfold val_main_v53
    refine (concatenate_pair_apply_right (t := S32x3x252x252x25) (s₁ := S32x3x252x252x16) (s₂ := S32x3x252x252x9) 4 _ _ _
      (ix5 B ch r' c' (⟨17, hk⟩ : Fin 25)) rfl rfl
      (ix5 B ch r' c' (⟨1, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨1, by decide⟩ : Fin 9)) 1 (by simp) S32x3x252x252x1 (val_main_v43 (F := Ideal) x) rfl rfl 1 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨3 + r'.val, by have := r'.isLt; omega⟩ := Fin.ext (by simp only [Fin.val_mk] at hR; omega)
    have eC : C = ⟨2 + c'.val, by have := c'.isLt; omega⟩ := Fin.ext (by simp only [Fin.val_mk] at hC; omega)
    rw [eR, eC]
    exact piece_17 x B ch r' c' 0
  | ⟨18, hk⟩, R, C, hR, hC => by
    unfold val_main_v53
    refine (concatenate_pair_apply_right (t := S32x3x252x252x25) (s₁ := S32x3x252x252x16) (s₂ := S32x3x252x252x9) 4 _ _ _
      (ix5 B ch r' c' (⟨18, hk⟩ : Fin 25)) rfl rfl
      (ix5 B ch r' c' (⟨2, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨2, by decide⟩ : Fin 9)) 2 (by simp) S32x3x252x252x1 (val_main_v44 (F := Ideal) x) rfl rfl 2 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨3 + r'.val, by have := r'.isLt; omega⟩ := Fin.ext (by simp only [Fin.val_mk] at hR; omega)
    have eC : C = ⟨3 + c'.val, by have := c'.isLt; omega⟩ := Fin.ext (by simp only [Fin.val_mk] at hC; omega)
    rw [eR, eC]
    exact piece_18 x B ch r' c' 0
  | ⟨19, hk⟩, R, C, hR, hC => by
    unfold val_main_v53
    refine (concatenate_pair_apply_right (t := S32x3x252x252x25) (s₁ := S32x3x252x252x16) (s₂ := S32x3x252x252x9) 4 _ _ _
      (ix5 B ch r' c' (⟨19, hk⟩ : Fin 25)) rfl rfl
      (ix5 B ch r' c' (⟨3, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨3, by decide⟩ : Fin 9)) 3 (by simp) S32x3x252x252x1 (val_main_v45 (F := Ideal) x) rfl rfl 3 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨3 + r'.val, by have := r'.isLt; omega⟩ := Fin.ext (by simp only [Fin.val_mk] at hR; omega)
    have eC : C = ⟨4 + c'.val, by have := c'.isLt; omega⟩ := Fin.ext (by simp only [Fin.val_mk] at hC; omega)
    rw [eR, eC]
    exact piece_19 x B ch r' c' 0
  | ⟨20, hk⟩, R, C, hR, hC => by
    unfold val_main_v53
    refine (concatenate_pair_apply_right (t := S32x3x252x252x25) (s₁ := S32x3x252x252x16) (s₂ := S32x3x252x252x9) 4 _ _ _
      (ix5 B ch r' c' (⟨20, hk⟩ : Fin 25)) rfl rfl
      (ix5 B ch r' c' (⟨4, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨4, by decide⟩ : Fin 9)) 4 (by simp) S32x3x252x252x1 (val_main_v46 (F := Ideal) x) rfl rfl 4 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨4 + r'.val, by have := r'.isLt; omega⟩ := Fin.ext (by simp only [Fin.val_mk] at hR; omega)
    have eC : C = ⟨0 + c'.val, by have := c'.isLt; omega⟩ := Fin.ext (by simp only [Fin.val_mk] at hC; omega)
    rw [eR, eC]
    exact piece_20 x B ch r' c' 0
  | ⟨21, hk⟩, R, C, hR, hC => by
    unfold val_main_v53
    refine (concatenate_pair_apply_right (t := S32x3x252x252x25) (s₁ := S32x3x252x252x16) (s₂ := S32x3x252x252x9) 4 _ _ _
      (ix5 B ch r' c' (⟨21, hk⟩ : Fin 25)) rfl rfl
      (ix5 B ch r' c' (⟨5, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨5, by decide⟩ : Fin 9)) 5 (by simp) S32x3x252x252x1 (val_main_v47 (F := Ideal) x) rfl rfl 5 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨4 + r'.val, by have := r'.isLt; omega⟩ := Fin.ext (by simp only [Fin.val_mk] at hR; omega)
    have eC : C = ⟨1 + c'.val, by have := c'.isLt; omega⟩ := Fin.ext (by simp only [Fin.val_mk] at hC; omega)
    rw [eR, eC]
    exact piece_21 x B ch r' c' 0
  | ⟨22, hk⟩, R, C, hR, hC => by
    unfold val_main_v53
    refine (concatenate_pair_apply_right (t := S32x3x252x252x25) (s₁ := S32x3x252x252x16) (s₂ := S32x3x252x252x9) 4 _ _ _
      (ix5 B ch r' c' (⟨22, hk⟩ : Fin 25)) rfl rfl
      (ix5 B ch r' c' (⟨6, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨6, by decide⟩ : Fin 9)) 6 (by simp) S32x3x252x252x1 (val_main_v48 (F := Ideal) x) rfl rfl 6 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨4 + r'.val, by have := r'.isLt; omega⟩ := Fin.ext (by simp only [Fin.val_mk] at hR; omega)
    have eC : C = ⟨2 + c'.val, by have := c'.isLt; omega⟩ := Fin.ext (by simp only [Fin.val_mk] at hC; omega)
    rw [eR, eC]
    exact piece_22 x B ch r' c' 0
  | ⟨23, hk⟩, R, C, hR, hC => by
    unfold val_main_v53
    refine (concatenate_pair_apply_right (t := S32x3x252x252x25) (s₁ := S32x3x252x252x16) (s₂ := S32x3x252x252x9) 4 _ _ _
      (ix5 B ch r' c' (⟨23, hk⟩ : Fin 25)) rfl rfl
      (ix5 B ch r' c' (⟨7, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨7, by decide⟩ : Fin 9)) 7 (by simp) S32x3x252x252x1 (val_main_v49 (F := Ideal) x) rfl rfl 7 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨4 + r'.val, by have := r'.isLt; omega⟩ := Fin.ext (by simp only [Fin.val_mk] at hR; omega)
    have eC : C = ⟨3 + c'.val, by have := c'.isLt; omega⟩ := Fin.ext (by simp only [Fin.val_mk] at hC; omega)
    rw [eR, eC]
    exact piece_23 x B ch r' c' 0
  | ⟨24, hk⟩, R, C, hR, hC => by
    unfold val_main_v53
    refine (concatenate_pair_apply_right (t := S32x3x252x252x25) (s₁ := S32x3x252x252x16) (s₂ := S32x3x252x252x9) 4 _ _ _
      (ix5 B ch r' c' (⟨24, hk⟩ : Fin 25)) rfl rfl
      (ix5 B ch r' c' (⟨8, by decide⟩ : Fin 9)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    unfold val_main_v52
    refine (concatenate_apply_piece (t := S32x3x252x252x9) 4 _ _ (ix5 B ch r' c' (⟨8, by decide⟩ : Fin 9)) 8 (by simp) S32x3x252x252x1 (val_main_v50 (F := Ideal) x) rfl rfl 8 (by rfl)
      (ix5 B ch r' c' (0 : Fin 1)) (fun b hb => match b, hb with | ⟨0, _⟩, _ => rfl | ⟨1, _⟩, _ => rfl | ⟨2, _⟩, _ => rfl | ⟨3, _⟩, _ => rfl | ⟨4, _⟩, hb => absurd rfl hb) (by rfl)).trans ?_
    have eR : R = ⟨4 + r'.val, by have := r'.isLt; omega⟩ := Fin.ext (by simp only [Fin.val_mk] at hR; omega)
    have eC : C = ⟨4 + c'.val, by have := c'.isLt; omega⟩ := Fin.ext (by simp only [Fin.val_mk] at hC; omega)
    rw [eR, eC]
    exact piece_24 x B ch r' c' 0
  | ⟨n + 25, h⟩, _, _, _, _ => absurd h (by omega)

end Cert.Hist.Ref

end
-- ==== Proof.RefValue.lean ====
/-
  The reference's result, read at an entry (n, s, ch, r, c) of the [4, 8, 3, 256, 256] array: `gform` of image
  (n, s, ch) of the input at pixel (r, c).  In the interior the zero padding reads the window sum at (r - 2, c - 2):
  0 plus, over the 25 patch entries, the weight of the entry against entry 12, the window's centre; outside it reads
  the padding value, the integer 0 converted.
-/
import proofs.«149960_j28905129902695_2_alg».proof.Proof.RefReadP
import Idealize.ShloMosaic.Lib.Pipeline.Value
import Idealize.ShloMosaic.Lib.KernelVsHost
import Idealize.ShloMosaic.Lib.IdealHost
import proofs.«149960_j28905129902695_2_alg».proof.Proof.Consts
import proofs.«149960_j28905129902695_2_alg».proof.Proof.Roll
import proofs.«149960_j28905129902695_2_alg».proof.Proof.Tri
import proofs.«149960_j28905129902695_2_alg».proof.Proof.RefPatches

set_option maxRecDepth 16384

noncomputable section

namespace Cert.Hist.Ref

open Cert.ReferenceIdeal Cert.ReferenceIdeal.Gen Cert.ReferenceIdeal.ReadP Idealize.ShloMosaic Idealize.ShloMosaic.ValueIdx Cert.Hist

theorem lt256 (a : Fin 252) : 2 + a.val < 256 := by have := a.isLt; omega

/-- The input reshaped to [32, 3, 256, 256]: image (n·8 + s, ch) is image (n, s, ch). -/
theorem v0_at (x : S4x8x3x256x256.Idx → EReal) (n : Fin 4) (s : Fin 8) (ch : Fin 3) (R C : Fin 256) :
    val_main_v0 (F := Ideal) x (ix4 (⟨n.val * 8 + s.val, by have := n.isLt; have := s.isLt; omega⟩ : Fin 32) ch R C) = x (ix5 n s ch R C) := by
  unfold val_main_v0
  exact shapeCast_apply x _ _ _ (by rewrite [Shape.rowMajor_val_five, Shape.rowMajor_val_four]; rfl)

/-- The result reshaped back from [32, 3, 256, 256]. -/
theorem v65_at (x : S4x8x3x256x256.Idx → EReal) (n : Fin 4) (s : Fin 8) (ch : Fin 3) (R C : Fin 256) :
    val_main_v65 (F := Ideal) x (ix5 n s ch R C)
      = val_main_v64 (F := Ideal) x (ix4 (⟨n.val * 8 + s.val, by have := n.isLt; have := s.isLt; omega⟩ : Fin 32) ch R C) := by
  unfold val_main_v65
  exact shapeCast_apply _ _ _ _ (by rewrite [Shape.rowMajor_val_four, Shape.rowMajor_val_five]; rfl)

/-- One weight of the window: patch entry k against patch entry 12. -/
theorem v62_at (x : S4x8x3x256x256.Idx → EReal) (B : Fin 32) (ch : Fin 3) (r' c' : Fin 252) (k : Fin 25) :
    val_main_v62 (F := Ideal) x (ix5 B ch r' c' k)
      = wR (val_main_v53 (F := Ideal) x (ix5 B ch r' c' k)) (val_main_v53 (F := Ideal) x (ix5 B ch r' c' (⟨12, by decide⟩ : Fin 25))) := by
  have e : idx_main_v54 (idx_main_v55 (ix5 B ch r' c' k)) = ix5 B ch r' c' (⟨12, by decide⟩ : Fin 25) :=
    funext fun d => match d with | ⟨0, _⟩ => rfl | ⟨1, _⟩ => rfl | ⟨2, _⟩ => rfl | ⟨3, _⟩ => rfl | ⟨4, _⟩ => rfl
  simp only [val_main_v62_apply, val_main_v61_apply, val_main_v60_apply, val_main_cst_0_apply, val_main_v59_apply,
    val_main_v58_apply, val_main_cst_apply, val_main_v57_apply, val_main_v56_apply, val_main_v55_apply, val_main_v54_apply,
    val_main_call0_v0_apply, val_main_call0_cst_apply, e,
    Ideal.ofBits_def, Ideal.subf_def, Ideal.hostDivf_def, Ideal.maximumf_def, Ideal.hostAbsf_def,
    ofBits_half, Ideal.ofBits_one_f32, Ideal.ofBits_zero_f32]
  rfl

/-- The window sum at window position (r', c'). -/
theorem v63_at (x : S4x8x3x256x256.Idx → EReal) (n : Fin 4) (s : Fin 8) (ch : Fin 3) (r' c' : Fin 252) :
    val_main_v63 (F := Ideal) x (ix4 (⟨n.val * 8 + s.val, by have := n.isLt; have := s.isLt; omega⟩ : Fin 32) ch r' c')
      = 0 + ∑ k : Fin 25, wR (x (ix5 n s ch ⟨k.val / 5 + r'.val, by have := r'.isLt; have := k.isLt; omega⟩ ⟨k.val % 5 + c'.val, by have := c'.isLt; omega⟩))
          (x (ix5 n s ch ⟨2 + r'.val, by have := r'.isLt; omega⟩ ⟨2 + c'.val, by have := c'.isLt; omega⟩)) := by
  rw [val_main_v63_apply, val_main_cst_1_apply, Ideal.ofBits_def, Ideal.ofBits_zero_f32]
  refine congrArg (0 + ·) (Finset.sum_congr rfl fun k _ => ?_)
  have e : idx_main_v63 (ix4 (⟨n.val * 8 + s.val, by have := n.isLt; have := s.isLt; omega⟩ : Fin 32) ch r' c') k
      = ix5 (⟨n.val * 8 + s.val, by have := n.isLt; have := s.isLt; omega⟩ : Fin 32) ch r' c' k :=
    funext fun d => match d with | ⟨0, _⟩ => rfl | ⟨1, _⟩ => rfl | ⟨2, _⟩ => rfl | ⟨3, _⟩ => rfl | ⟨4, _⟩ => rfl
  rw [e, v62_at,
    patch x _ ch r' c' k ⟨k.val / 5 + r'.val, by have := r'.isLt; have := k.isLt; omega⟩ ⟨k.val % 5 + c'.val, by have := c'.isLt; omega⟩ rfl rfl,
    patch x _ ch r' c' (⟨12, by decide⟩ : Fin 25) ⟨2 + r'.val, by have := r'.isLt; omega⟩ ⟨2 + c'.val, by have := c'.isLt; omega⟩ rfl rfl,
    v0_at, v0_at]

/-- The padded result at an interior pixel is the window sum two rows and two columns back. -/
theorem v64_inside (x : S4x8x3x256x256.Idx → EReal) (B : Fin 32) (ch : Fin 3) (r' c' : Fin 252) :
    val_main_v64 (F := Ideal) x (ix4 B ch (⟨2 + r'.val, by have := r'.isLt; omega⟩ : Fin 256) (⟨2 + c'.val, by have := c'.isLt; omega⟩ : Fin 256))
      = val_main_v63 (F := Ideal) x (ix4 B ch r' c') := by
  unfold val_main_v64
  refine pad_apply_of_inside _ _ _ _ _ _ _ _ (ix4 B ch r' c') (fun a => ?_)
  match a with
  | ⟨0, _⟩ => show B.val = 0 + B.val * (0 + 1); omega
  | ⟨1, _⟩ => show ch.val = 0 + ch.val * (0 + 1); omega
  | ⟨2, _⟩ => show 2 + r'.val = 2 + r'.val * (0 + 1); omega
  | ⟨3, _⟩ => show 2 + c'.val = 2 + c'.val * (0 + 1); omega

/-- The padding value is 0. -/
theorem pad_value : val_main_call1_v0 (F := Ideal) (Shape.Idx.first h_S_) = 0 := by
  rw [val_main_call1_v0_apply, val_main_c_apply]
  show (((0#32 : BitVec 32).toInt : ℝ) : EReal) = 0
  simp

/-- Outside the interior rows the padded result is 0. -/
theorem v64_outside_row (x : S4x8x3x256x256.Idx → EReal) (B : Fin 32) (ch : Fin 3) (r c : Fin 256)
    (h : ¬(2 ≤ r.val ∧ r.val ≤ 253)) : val_main_v64 (F := Ideal) x (ix4 B ch r c) = 0 := by
  unfold val_main_v64
  rw [pad_apply_of_not_inside _ _ _ _ _ _ _ _ (2 : Fin 4) (by
    show ¬(2 ≤ r.val ∧ (r.val - 2) % (0 + 1) = 0 ∧ (r.val - 2) / (0 + 1) < 252)
    omega)]
  exact pad_value

/-- Outside the interior columns the padded result is 0. -/
theorem v64_outside_col (x : S4x8x3x256x256.Idx → EReal) (B : Fin 32) (ch : Fin 3) (r c : Fin 256)
    (h : ¬(2 ≤ c.val ∧ c.val ≤ 253)) : val_main_v64 (F := Ideal) x (ix4 B ch r c) = 0 := by
  unfold val_main_v64
  rw [pad_apply_of_not_inside _ _ _ _ _ _ _ _ (3 : Fin 4) (by
    show ¬(2 ≤ c.val ∧ (c.val - 2) % (0 + 1) = 0 ∧ (c.val - 2) / (0 + 1) < 252)
    omega)]
  exact pad_value

/-- The reference's result at an entry. -/
theorem ref_apply (x : S4x8x3x256x256.Idx → EReal) (n : Fin 4) (s : Fin 8) (ch : Fin 3) (r c : Fin 256) :
    val_main_v65 (F := Ideal) x (ix5 n s ch r c) = gform (fun R C => x (ix5 n s ch R C)) r c := by
  rw [v65_at]
  unfold gform
  by_cases hr : 2 ≤ r.val ∧ r.val ≤ 253
  · by_cases hc : 2 ≤ c.val ∧ c.val ≤ 253
    · have hI : interior r c = true := by simp [interior, hr.1, hr.2, hc.1, hc.2]
      rw [if_pos hI]
      obtain ⟨r', er⟩ : ∃ r' : Fin 252, r = ⟨2 + r'.val, lt256 r'⟩ :=
        ⟨⟨r.val - 2, by omega⟩, Fin.ext (by show r.val = 2 + (r.val - 2); omega)⟩
      obtain ⟨c', ec⟩ : ∃ c' : Fin 252, c = ⟨2 + c'.val, lt256 c'⟩ :=
        ⟨⟨c.val - 2, by omega⟩, Fin.ext (by show c.val = 2 + (c.val - 2); omega)⟩
      clear hI hr hc
      subst er ec
      rw [v64_inside, v63_at]
      refine congrArg (0 + ·) (Finset.sum_congr rfl fun k _ => ?_)
      have hk := k.isLt
      have hr' := r'.isLt
      have hc' := c'.isLt
      have e1 : (⟨k.val / 5 + r'.val, by omega⟩ : Fin 256) = sh ⟨2 + r'.val, by omega⟩ ((254 + k.val / 5) % 256) :=
        Fin.ext (by show k.val / 5 + r'.val = (2 + r'.val + (254 + k.val / 5) % 256) % 256; omega)
      have e2 : (⟨k.val % 5 + c'.val, by omega⟩ : Fin 256) = sh ⟨2 + c'.val, by omega⟩ ((254 + k.val % 5) % 256) :=
        Fin.ext (by show k.val % 5 + c'.val = (2 + c'.val + (254 + k.val % 5) % 256) % 256; omega)
      rw [e1, e2]
    · have hI : interior r c = false := by
        simp only [interior, Bool.and_eq_false_iff, decide_eq_false_iff_not]; omega
      rw [hI, v64_outside_col x _ ch r c hc]; rfl
  · have hI : interior r c = false := by
      simp only [interior, Bool.and_eq_false_iff, decide_eq_false_iff_not]; omega
    rw [hI, v64_outside_row x _ ch r c hr]; rfl

end Cert.Hist.Ref

end
-- ==== Proof.BodyValue.lean ====
/-
  What the kernel body leaves in the output block, read at one entry (p, r, c): the body rolls the block only along
  its rows and columns, so the entry depends on image p of the block alone, and is `kform` of that image at (r, c) —
  the 24 weights in the body's order of additions on top of the centre's 1, masked to the interior.
-/
import proofs.«149960_j28905129902695_2_alg».proof.Proof.Gen.KernelIdeal.Frame
import Idealize.ShloMosaic.Lib.Pipeline.Value
import Idealize.ShloMosaic.Lib.IdealHost
import proofs.«149960_j28905129902695_2_alg».proof.Proof.Consts
import proofs.«149960_j28905129902695_2_alg».proof.Proof.Roll
import proofs.«149960_j28905129902695_2_alg».proof.Proof.Tri

set_option maxRecDepth 16384

noncomputable section

namespace Cert.Hist

open Cert.KernelIdeal Cert.KernelIdeal.Gen Idealize.ShloMosaic Idealize.ShloMosaic.ValueIdx

theorem hz3 : (![0, 0, 0] : Fin 3 → Nat) = fun _ => 0 := funext fun a => by fin_cases a <;> rfl

/-- The entry (p, r, c) of a block. -/
def at3 (p : Fin 12) (r c : Fin 256) : S12x256x256.Idx := ix3 p r c

/-! The body's eight rolls, each read at an entry. -/

theorem rows_255 {α : Type} (x : S12x256x256.Idx → α) (h : S12x256x256.Rotates 1 none) (p : Fin 12) (r c : Fin 256) :
    dynamicRotate 1 255#32 none x h (at3 p r c) = x (at3 p (sh r 1) c) :=
  roll_rows 255#32 255 rfl (by decide) x h p r c

theorem rows_254 {α : Type} (x : S12x256x256.Idx → α) (h : S12x256x256.Rotates 1 none) (p : Fin 12) (r c : Fin 256) :
    dynamicRotate 1 254#32 none x h (at3 p r c) = x (at3 p (sh r 2) c) :=
  roll_rows 254#32 254 rfl (by decide) x h p r c

theorem rows_1 {α : Type} (x : S12x256x256.Idx → α) (h : S12x256x256.Rotates 1 none) (p : Fin 12) (r c : Fin 256) :
    dynamicRotate 1 1#32 none x h (at3 p r c) = x (at3 p (sh r 255) c) :=
  roll_rows 1#32 1 rfl (by decide) x h p r c

theorem rows_2 {α : Type} (x : S12x256x256.Idx → α) (h : S12x256x256.Rotates 1 none) (p : Fin 12) (r c : Fin 256) :
    dynamicRotate 1 2#32 none x h (at3 p r c) = x (at3 p (sh r 254) c) :=
  roll_rows 2#32 2 rfl (by decide) x h p r c

theorem cols_255 {α : Type} (x : S12x256x256.Idx → α) (h : S12x256x256.Rotates 2 none) (p : Fin 12) (r c : Fin 256) :
    dynamicRotate 2 255#32 none x h (at3 p r c) = x (at3 p r (sh c 1)) :=
  roll_cols 255#32 255 rfl (by decide) x h p r c

theorem cols_254 {α : Type} (x : S12x256x256.Idx → α) (h : S12x256x256.Rotates 2 none) (p : Fin 12) (r c : Fin 256) :
    dynamicRotate 2 254#32 none x h (at3 p r c) = x (at3 p r (sh c 2)) :=
  roll_cols 254#32 254 rfl (by decide) x h p r c

theorem cols_1 {α : Type} (x : S12x256x256.Idx → α) (h : S12x256x256.Rotates 2 none) (p : Fin 12) (r c : Fin 256) :
    dynamicRotate 2 1#32 none x h (at3 p r c) = x (at3 p r (sh c 255)) :=
  roll_cols 1#32 1 rfl (by decide) x h p r c

theorem cols_2 {α : Type} (x : S12x256x256.Idx → α) (h : S12x256x256.Rotates 2 none) (p : Fin 12) (r c : Fin 256) :
    dynamicRotate 2 2#32 none x h (at3 p r c) = x (at3 p r (sh c 254)) :=
  roll_cols 2#32 2 rfl (by decide) x h p r c

theorem iota_rows (h : S12x256x256.Iotas .tc 32 [1]) (p : Fin 12) (r c : Fin 256) :
    iota .tc S12x256x256 32 [1] h (at3 p r c) = BitVec.ofNat 32 r.val :=
  iota_single_apply .tc S12x256x256 32 1 h (ix3 p r c)

theorem iota_cols (h : S12x256x256.Iotas .tc 32 [2]) (p : Fin 12) (r c : Fin 256) :
    iota .tc S12x256x256 32 [2] h (at3 p r c) = BitVec.ofNat 32 c.val :=
  iota_single_apply .tc S12x256x256 32 2 h (ix3 p r c)

theorem absf_at (a : FVec Ideal S12x256x256 .f32) (i : S12x256x256.Idx) : absf a i = max (a i) (-(a i)) := rfl
theorem cmpi_at (q : CmpIPredicate) (a b : IVec S12x256x256 32) (i : S12x256x256.Idx) : cmpi q a b i = IntOp.cmpi q (a i) (b i) := rfl
theorem andi_at (a b : IVec S12x256x256 1) (i : S12x256x256.Idx) : andi a b i = IntOp.andi (a i) (b i) := rfl
theorem scalar_ofBits_at (b : BitVec 32) : Scalar.ofBits (F := Ideal) .f32 b = Ideal.ofBits .f32 b := rfl

/-- The output block after the body, at entry (p, r, c). -/
theorem body_apply (x0 : Vec Ideal S12x256x256 .f32) (p : Fin 12) (r c : Fin 256) :
    out0_1 (F := Ideal) x0 (ix3 p r c) = kform (fun r' c' => x0 (ix3 p r' c')) r c := by
  show out0_1 (F := Ideal) x0 (at3 p r c) = kform (fun r' c' => x0 (at3 p r' c')) r c
  unfold out0_1
  rw [View.canon_unit_zero hz3]
  simp only [View.ld_unit_zero (S := S12x256x256) hz3]
  unfold k0_pay1 k0_pay11 k0_pay10 k0_pay9 k0_pay8 k0_pay7 k0_pay6 k0_pay5 k0_pay4 k0_pay3 k0_pay2 k0_pay12 k0_pay13
  simp only [select_apply, addf_apply, subf_apply, mulf_apply, maximumf_apply, absf_at, broadcast_apply, shapeCast_self, cmpi_at, andi_at]
  repeat (first
    | rw [rows_255] | rw [rows_254] | rw [rows_1] | rw [rows_2]
    | rw [cols_255] | rw [cols_254] | rw [cols_1] | rw [cols_2]
    | simp only [addf_apply, subf_apply, mulf_apply, maximumf_apply, absf_at, broadcast_apply])
  rw [iota_rows, iota_cols, cmp_ge_two, cmp_le_253, cmp_ge_two, cmp_le_253]
  simp only [sh_sh, Nat.reduceAdd, Nat.reduceMod, sh_zero, scalar_ofBits_at, Ideal.ofBits_one_f32, Ideal.ofBits_zero_f32, ofBits_two,
    and_ofBool, select_ofBool]
  unfold kform wK interior
  rfl

end Cert.Hist

end
-- ==== Proof.KernelArray.lean ====
/-
  From blocks to the array.  Grid point t stages images 12·t … 12·t + 11 of the [96, 256, 256] array, whole, and
  writes the body's result back to the same images of the output, so what it writes back is block t of ONE function of
  the staged array: image by image, `kform`.  The 8 blocks tile the 96 images, so the output array after the run is
  that function.
-/
import proofs.«149960_j28905129902695_2_alg».proof.Proof.Gen.KernelIdeal.Frame
import Idealize.ShloMosaic.Lib.Pipeline.Value
import proofs.«149960_j28905129902695_2_alg».proof.Proof.BodyValue

set_option maxRecDepth 16384

noncomputable section

namespace Cert.Hist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The histogram of every image of a [96, 256, 256] array. -/
def G96 (xf : S96x256x256.Idx → EReal) : S96x256x256.Idx → EReal :=
  fun j => kform (fun R C => xf (ix3 (j 0) R C)) (j 1) (j 2)

/-- The body's result at any entry of the block. -/
theorem body_at (x0 : Vec Ideal S12x256x256 .f32) (y : S12x256x256.Idx) :
    out0_1 (F := Ideal) x0 y = kform (fun R C => x0 (ix3 (y 0) R C)) (y 1) (y 2) :=
  (congrArg (out0_1 (F := Ideal) x0) (eq_ix3 y)).trans (body_apply x0 (y 0) (y 1) (y 2))

/-- Both index maps send point t to block (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem pt_lt (t : Fin cfg0.N) : t.val < 8 := by
  have h := t.isLt
  have hN : cfg0.N = 8 := N_0
  omega

/-- Image (y 0) of block t is an image of the array. -/
theorem blk_lt (t : Fin cfg0.N) (y : S12x256x256.Idx) : t.val * 12 + (y 0).val < 96 := by
  have := pt_lt t
  have h0 : (y 0).val < 12 := (y 0).isLt
  omega

/-- Where entry y of the input block at point t sits in the staged array. -/
theorem emb_in (t : Fin cfg0.N) (y : S12x256x256.Idx) :
    ((cfg0.win 0).blk t).view.emb y
      = (ix3 (⟨t.val * 12 + (y 0).val, blk_lt t y⟩ : Fin 96) (y 1) (y 2) : S96x256x256.Idx) := by
  obtain ⟨e0, e1, e2, -, -, -⟩ := idx_facts t
  funext a; apply Fin.ext
  match a with
  | ⟨0, _⟩ => show win0_0.index t (0 : Fin 3) * 12 + 1 * (y 0).val = t.val * 12 + (y 0).val; rw [e0]; omega
  | ⟨1, _⟩ => show win0_0.index t (1 : Fin 3) * 256 + 1 * (y 1).val = (y 1).val; rw [e1]; omega
  | ⟨2, _⟩ => show win0_0.index t (2 : Fin 3) * 256 + 1 * (y 2).val = (y 2).val; rw [e2]; omega

/-- Where entry y of the output block at point t sits in the output array. -/
theorem emb_out (t : Fin cfg0.N) (y : S12x256x256.Idx) :
    ((cfg0.win 1).blk t).view.emb y
      = (ix3 (⟨t.val * 12 + (y 0).val, blk_lt t y⟩ : Fin 96) (y 1) (y 2) : S96x256x256.Idx) := by
  obtain ⟨-, -, -, e0, e1, e2⟩ := idx_facts t
  funext a; apply Fin.ext
  match a with
  | ⟨0, _⟩ => show win0_1.index t (0 : Fin 3) * 12 + 1 * (y 0).val = t.val * 12 + (y 0).val; rw [e0]; omega
  | ⟨1, _⟩ => show win0_1.index t (1 : Fin 3) * 256 + 1 * (y 1).val = (y 1).val; rw [e1]; omega
  | ⟨2, _⟩ => show win0_1.index t (2 : Fin 3) * 256 + 1 * (y 2).val = (y 2).val; rw [e2]; omega

/-- The body's result on point t's input block, at entry y, is the histogram of the staged array where entry y sits. -/
theorem flushed_at (c : Dev nD) (t : Fin cfg0.N) (y : S12x256x256.Idx) :
    out0_1 (F := Ideal) (iblk m c 0 t) y = G96 (V m c main_v0) (((cfg0.win 1).blk t).view.emb y) := by
  rw [body_at, emb_out t y]
  have hblk : ∀ R C : Fin 256, iblk m c 0 t (ix3 (y 0) R C)
      = V m c main_v0 (ix3 (⟨t.val * 12 + (y 0).val, blk_lt t y⟩ : Fin 96) R C) := fun R C => by
    show V m c main_v0 (((cfg0.win 0).blk t).view.emb (ix3 (y 0) R C)) = _
    rw [emb_in t]
  simp only [hblk]
  rfl

/-- What point t writes back is block t of the histogram of the staged array. -/
theorem flushed_eq (c : Dev nD) (t : Fin cfg0.N) :
    (dats m 0 c).flushed 1 t = ((cfg0.win 1).blk t).view.read (Elt Ideal) (G96 (V m c main_v0)) := by
  show (cfg0.win 1).cut (grid0.coords t) ((dats m 0 c).after 1 t) = _
  rw [after0_1]
  funext j
  exact flushed_at m c t j

/-- An index of the output array is in point t's block iff each coordinate is in the block's range. -/
theorem mem_blk (t : Fin cfg0.N) (i : S96x256x256.Idx) :
    i ∈ ((cfg0.win 1).blk t).view.set ↔ ∀ a : Fin 3, win0_1.index t a * S12x256x256.size a ≤ (i a).val
      ∧ (i a).val < win0_1.index t a * S12x256x256.size a + S12x256x256.size a := by
  show i ∈ ((View.whole main_v1).slice (win0_1.rect t)).set ↔ _
  rw [View.set_slice_whole, Rect.mem_set_unit]
  exact Iff.rfl

/-- The output array after the run is the histogram of the staged array. -/
theorem final (c : Dev nD) : (dats m 0 c).arrAt 1 cfg0.N = G96 (V m c main_v0) :=
  (dats m 0 c).arrAt_eq_of_cover 1 (G96 (V m c main_v0)) (fun t _ => flushed_eq m c t) fun i => by
    have h0 : (i 0).val < 96 := (i 0).isLt
    have h1 : (i 1).val < 256 := (i 1).isLt
    have h2 : (i 2).val < 256 := (i 2).isLt
    refine ⟨⟨(i 0).val / 12, by have hN : cfg0.N = 8 := N_0; omega⟩, flush0_1 _, ?_⟩
    rw [mem_blk]
    obtain ⟨-, -, -, e0, e1, e2⟩ := idx_facts ⟨(i 0).val / 12, by have hN : cfg0.N = 8 := N_0; omega⟩
    intro a
    match a with
    | ⟨0, _⟩ =>
      show win0_1.index _ (0 : Fin 3) * 12 ≤ (i 0).val ∧ (i 0).val < win0_1.index _ (0 : Fin 3) * 12 + 12
      rw [e0]; show (i 0).val / 12 * 12 ≤ (i 0).val ∧ (i 0).val < (i 0).val / 12 * 12 + 12; omega
    | ⟨1, _⟩ =>
      show win0_1.index _ (1 : Fin 3) * 256 ≤ (i 1).val ∧ (i 1).val < win0_1.index _ (1 : Fin 3) * 256 + 256
      rw [e1]; omega
    | ⟨2, _⟩ =>
      show win0_1.index _ (2 : Fin 3) * 256 ≤ (i 2).val ∧ (i 2).val < win0_1.index _ (2 : Fin 3) * 256 + 256
      rw [e2]; omega

end Cert.Hist

end
-- ==== Proof.KernelRun.lean ====
/-
  The kernel program's run, read: the input is reshaped to [96, 256, 256] (image (n, s, ch) becomes image
  (n·8 + s)·3 + ch), the region leaves the histogram of every image in the output array, and the result is that array
  reshaped back.  On an input of real numbers the result at (n, s, ch, r, c) is therefore `gform` of image (n, s, ch) at
  (r, c): the kernel's arrangement of the sum is the reference's there.
-/
import proofs.«149960_j28905129902695_2_alg».proof.Proof.Gen.KernelIdeal.Frame
import Idealize.ShloMosaic.Lib.Pipeline.Value
import Idealize.ShloMosaic.Lib.StableHlo.Run
import proofs.«149960_j28905129902695_2_alg».proof.Proof.KernelArray

set_option maxRecDepth 16384

noncomputable section

namespace Cert.Hist

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The histogram of every image of a [4, 8, 3, 256, 256] array, in the reference's arrangement. -/
def Gtot (x : S4x8x3x256x256.Idx → EReal) : S4x8x3x256x256.Idx → EReal :=
  fun i => gform (fun R C => x (ix5 (i 0) (i 1) (i 2) R C)) (i 3) (i 4)

/-- The array the region stages is the input reshaped. -/
theorem staged (c : Dev nD) : (V m c main_v0 : S96x256x256.Idx → EReal)
    = shapeCast S96x256x256 (m ((c : Thread nD τ).loc main_arg0) : S4x8x3x256x256.Idx → EReal) shapeCasts_S4x8x3x256x256_S96x256x256 := by
  show StableHlo.after hostOps0 (fun b => m (c, b)) (Proc.devRef .tc main_v0) = _
  after_results
  rfl

/-- The result buffer after the run is the output array reshaped. -/
theorem tail_value (c : Dev nD) :
    (Pipeline.afterTail₀ cfgs (dats m) 0 (V0 m) [hostOps1] c main_v2 : S4x8x3x256x256.Idx → EReal)
      = shapeCast S4x8x3x256x256 (G96 (V m c main_v0)) shapeCasts_S96x256x256_S4x8x3x256x256 := by
  unfold Pipeline.afterTail₀
  show StableHlo.after hostOps1 _ (Proc.devRef .tc main_v2) = _
  after_results
  have hw := (Pipeline.withArrays_arr spec0 launch0.win.arr_inj c (V0 m c) (fun w => (dats m 0 c).arrAt w (cfgs 0).N) 1).trans (final m c)
  exact congrArg (fun a => shapeCast S4x8x3x256x256 a shapeCasts_S96x256x256_S4x8x3x256x256) hw

/-- The kernel program's result as a function of its input: reshape, histogram of every image, reshape back. -/
def Kres (x : S4x8x3x256x256.Idx → EReal) : S4x8x3x256x256.Idx → EReal :=
  shapeCast S4x8x3x256x256 (G96 (shapeCast S96x256x256 x shapeCasts_S4x8x3x256x256_S96x256x256)) shapeCasts_S96x256x256_S4x8x3x256x256

/-- The kernel program's run: every weakly fair execution ends with the result buffer at `Kres` of the input and the
    input unchanged. -/
theorem kernel_run : θ_run defs (onTc (τ := τ) (main (F := Ideal))) ⟨m, fun _ => 0, ρ⟩ (fun r => ∀ c : Dev nD,
      r.2.mem ((c.tc : Thread nD τ).loc main_v2) = Kres (m ((c.tc : Thread nD τ).loc main_arg0))
      ∧ r.2.mem ((c.tc : Thread nD τ).loc main_arg0) = m ((c.tc : Thread nD τ).loc main_arg0)) :=
  (θ_run defs _ _).mono (fun r h c =>
    ⟨(((h c).2 main_v2 (Pipeline.mem_restRefs_of main_v2 (by decide) (by decide))).trans (tail_value m c)).trans (by rw [staged]; rfl),
     ((h c).2 main_arg0 (Pipeline.mem_restRefs_of main_arg0 (by decide) (by decide))).trans (W_main_arg0 m (dats m) c)⟩)
    (run_main m ρ)

/-- On an input of real numbers the kernel program's result is `Gtot` of the input. -/
theorem kernel_total (x : S4x8x3x256x256.Idx → EReal) (hfin : ∀ j, ∃ r : ℝ, x j = (r : EReal)) : Kres x = Gtot x := by
  funext i
  obtain ⟨n, s, ch, r, c, rfl⟩ : ∃ (n : Fin 4) (s : Fin 8) (ch : Fin 3) (r c : Fin 256), i = ix5 n s ch r c :=
    ⟨i 0, i 1, i 2, i 3, i 4, eq_ix5 i⟩
  have hg : (n.val * 8 + s.val) * 3 + ch.val < 96 := by
    have := n.isLt; have := s.isLt; have := ch.isLt; omega
  unfold Kres
  rw [shapeCast_apply _ _ (ix5 n s ch r c) (ix3 (⟨(n.val * 8 + s.val) * 3 + ch.val, hg⟩ : Fin 96) r c)
    (by rewrite [Shape.rowMajor_val_three, Shape.rowMajor_val_five]; rfl)]
  have hx : ∀ R C : Fin 256,
      shapeCast S96x256x256 x shapeCasts_S4x8x3x256x256_S96x256x256 (ix3 (⟨(n.val * 8 + s.val) * 3 + ch.val, hg⟩ : Fin 96) R C)
        = x (ix5 n s ch R C) := fun R C =>
    shapeCast_apply x _ _ _ (by rewrite [Shape.rowMajor_val_five, Shape.rowMajor_val_three]; rfl)
  show kform (fun R C => shapeCast S96x256x256 x shapeCasts_S4x8x3x256x256_S96x256x256
      (ix3 (⟨(n.val * 8 + s.val) * 3 + ch.val, hg⟩ : Fin 96) R C)) r c = gform (fun R C => x (ix5 n s ch R C)) r c
  simp only [hx]
  exact kform_eq_gform _ (fun R C => hfin _) r c

end Cert.Hist

end
-- ==== Proof.lean ====
/-
  The soft local histogram: for every pixel of every image, the sum over its 5 × 5 window of the triangular weight
  max(0, 1 - |neighbour - centre| / (1/2)), zero within two pixels of the border.

  The kernel program reshapes the input to 96 images, computes each image's histogram block by block (12 images per
  grid point) with cyclic rolls of the whole image — the wrapped values only reach pixels that the final mask zeroes —
  starting from the centre's weight 1 and adding, offset by offset, the weight at +d and the weight seen from -d, and
  reshapes back.  The reference slices the 25 shifted windows, stacks them, weighs each against the centre entry, sums
  from 0 and zero-pads.  On real inputs the weight is symmetric, is 1 at the centre, and dividing by 1/2 is doubling,
  so both results are ONE function of the input (`Cert.Hist.Gtot`): `algebraic`.  The precondition (every input finite)
  is used exactly there.  The three frames are the generated ones; the ideal pass rewrote nothing, so `preserves` is
  trivial.
-/
import proofs.«149960_j28905129902695_2_alg».proof.Defs
import proofs.«149960_j28905129902695_2_alg».proof.Proof.Gen.Kernel
import proofs.«149960_j28905129902695_2_alg».proof.Proof.Gen.Kernel.Skeleton
import proofs.«149960_j28905129902695_2_alg».proof.Proof.Gen.Kernel.Launch
import proofs.«149960_j28905129902695_2_alg».proof.Proof.Gen.Kernel.Points
import proofs.«149960_j28905129902695_2_alg».proof.Proof.Gen.Kernel.Frame
import proofs.«149960_j28905129902695_2_alg».proof.Proof.Gen.KernelIdeal
import proofs.«149960_j28905129902695_2_alg».proof.Proof.Gen.KernelIdeal.Skeleton
import proofs.«149960_j28905129902695_2_alg».proof.Proof.Gen.KernelIdeal.Launch
import proofs.«149960_j28905129902695_2_alg».proof.Proof.Gen.KernelIdeal.Points
import proofs.«149960_j28905129902695_2_alg».proof.Proof.Gen.KernelIdeal.Frame
import proofs.«149960_j28905129902695_2_alg».proof.Proof.Gen.ReferenceIdeal
import proofs.«149960_j28905129902695_2_alg».proof.Proof.Gen.Pre_finite_inputs
import proofs.«149960_j28905129902695_2_alg».proof.Proof.RefRunP
import proofs.«149960_j28905129902695_2_alg».proof.Proof.RefReadP
import proofs.«149960_j28905129902695_2_alg».proof.Proof.Finite
import proofs.«149960_j28905129902695_2_alg».proof.Proof.RefValue
import proofs.«149960_j28905129902695_2_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result array is `Gtot` of the input. -/
theorem ref_total (x : Cert.ReferenceIdeal.S4x8x3x256x256.Idx → EReal) :
    Cert.ReferenceIdeal.ReadP.val_main_v65 (F := Ideal) x = Cert.Hist.Gtot x := by
  funext i
  rw [eq_ix5 i]
  exact Cert.Hist.Ref.ref_apply x (i 0) (i 1) (i 2) (i 3) (i 4)

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with `Gtot` of the (finite) input in their result arrays. -/
theorem algebraic : Cert.algebraic_KernelIdeal_ReferenceIdeal := by
  intro m ρ m' ρ' hpre hagree
  refine ⟨fun c => Cert.Hist.Gtot (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Hist.kernel_total _ (Cert.Hist.real_of_pre _ (hpre c))), (h c).2⟩)
      (Cert.Hist.kernel_run m ρ)
  · refine (θ_run Cert.ReferenceIdeal.defs _ _).mono (fun _ h c => ⟨?_, (h c).2⟩)
      (Cert.ReferenceIdeal.ValueP.run (F := Ideal) m' ρ')
    rw [(h c).1, hagree c]
    exact ref_total _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
